-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S16x128 : Shape := ⟨2, ![16, 128]⟩
abbrev S1024x256 : Shape := ⟨2, ![1024, 256]⟩
abbrev S1024x1 : Shape := ⟨2, ![1024, 1]⟩
abbrev S1x1024 : Shape := ⟨2, ![1, 1024]⟩
abbrev S8x128 : Shape := ⟨2, ![8, 128]⟩
abbrev S256x1024 : Shape := ⟨2, ![256, 1024]⟩
abbrev S1024x1024 : Shape := ⟨2, ![1024, 1024]⟩
abbrev S1024 : Shape := ⟨1, ![1024]⟩
abbrev S1 : Shape := ⟨1, ![1]⟩
abbrev S1x1 : Shape := ⟨2, ![1, 1]⟩

abbrev nBuf : Space → Nat
  | .hbm => 28
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .bf16⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S1x8192, .f32⟩
  | .hbm, ⟨21, _⟩ => ⟨S8192x1, .i32⟩
  | .hbm, ⟨22, _⟩ => ⟨S1x8192, .i32⟩
  | .hbm, ⟨23, _⟩ => ⟨S16x128, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S8x128, .f32⟩
  | .local _ .vmem, ⟨13, _⟩ => ⟨S8x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

class Facts₀ : Prop where
  bitsLt_bf16_f32 : FTy.bits .bf16 < FTy.bits .f32
  reducesTo_S8192x256_S8192_d1 : S8192x256.ReducesTo [1] S8192
  h_S_ : 0 < S_.numel
  bcast_S_S8192 : S_.BroadcastsInDim S8192 (![] : Fin 0 → Fin S8192.rank)
  shapeCasts_S8192_S8192x1 : S8192.ShapeCasts S8192x1
  shapeCasts_S8192_S1x8192 : S8192.ShapeCasts S1x8192
  inb_S8x128_S8x128_0_0 : ∀ a, (![0, 0] : Fin 2 → Nat) a + S8x128.size a ≤ S8x128.size a
  h_S8x128 : 0 < S8x128.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  shapeCasts_S8x128_S8x128 : S8x128.ShapeCasts S8x128
  reducesTo_S16x128_S_d0_1 : S16x128.ReducesTo [0, 1] S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .i32 = 32 ∨ (Rect.block (s := S1x8192) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S16x128.size a
  hwx0_6 : ∀ i : grid0.Coords, EltTy.bits .f32 = 32 ∨ (Rect.block (s := S16x128) S8x128.size (cc0_transform_6 i) (hinb0_6 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 46
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S256x8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x1, .f32⟩
  | .hbm, ⟨19, _⟩ => ⟨S1x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x1, .i32⟩
  | .hbm, ⟨31, _⟩ => ⟨S1x8192, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.K.Base.lean ====
/-
  What the run of the pallas_call and its value share: the contents of the core's buffers when the region is
  entered (the host operations before it applied to the launch memory), @main as those operations, the region and
  the operations after it, and each window's block at a grid point read off its array.
-/
import proofs.«121745_j76081050681843_2_alg».proof.Proof.Gen.Kernel.Launch
import proofs.«121745_j76081050681843_2_alg».proof.Proof.Gen.Kernel.Skeleton
import proofs.«121745_j76081050681843_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffer contents when the region is entered: the 21 host operations before it, applied in order to
    the launch memory. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the four host operations after it: it reduces
    to the region continued by those four, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body resets its output tile exactly when the two inner grid coordinates are zero. -/
abbrev resetCond (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- That is at the first of each core's 32 points. -/
theorem resetCond_iff : ∀ t : Fin cfg0.N, resetCond (grid0.coords t) ↔ t.val % 32 = 0 :=
  (by decide +kernel : ∀ t : Fin grid0.N, resetCond (grid0.coords t) ↔ t.val % 32 = 0)

/-- One staging buffer of the output window, through which its contents are stated. -/
abbrev VO : View sig .tc .vmem S8x128 .f32 := (Memref.whole cc0_stg6_0 : Memref sig .tc .vmem S8x128 .f32).view
/-- Each window's current staging memref at point `t`, and that it is a whole buffer. -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x128 .f32 := win0_6.stage (cfg0.slots t 6)
abbrev hs6 (t : Fin cfg0.N) : (ms6 t).IsWhole := hstage0_6 ((cfg0.slots t 6).cast nbuf0_6)

end Cert.Kernel.Hand

end
-- ==== Proof.K.Launch.lean ====
/-
  The run of the whole program from the proof data of its one pallas_call.  Two input windows of the call read one
  array (the rounded input), so the array's full share is dealt to them in halves when the region is entered; the output
  array is held outright.  After the region four host operations sum the output array and divide by 8192: they read the
  output array and the buffers that bypass the region, and write none of the windows' arrays.
-/
import proofs.«121745_j76081050681843_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The unscoped buffers that are no window's array. -/
abbrev restSet : Finset (Ref sig .tc) :=
  (Finset.univ.filter fun b : Ref sig .tc => ¬ b.isScoped) \ Finset.univ.image (Pipeline.arrRef spec0)

/-- The buffers the host operations after the region run within: the output array and the buffers that bypass the region. -/
abbrev tailSet : Finset (DevRef τ sig) :=
  (insert main_v16 restSet).map ⟨Proc.devRef (sig := sig) (.tc : Proc τ), Proc.devRef_injective _⟩

theorem main_v16_not_rest : main_v16 ∉ restSet := by decide

/-- The buffers' contents when the region exits, as far as the later host operations read them: the output array at
    `A`, every other buffer as the region found it. -/
def exitV (c : Dev nD) (A : Buf (Elt F) ((c : Thread nD τ).loc main_v16)) : Valuation τ sig (Elt F) :=
  Function.update (V0 m c) (Proc.devRef .tc main_v16) A

/-- And after the four host operations that follow the region. -/
def tailV (c : Dev nD) (A : Buf (Elt F) ((c : Thread nD τ).loc main_v16)) : Valuation τ sig (Elt F) :=
  StableHlo.after hostOps1 (exitV m c A)

theorem exitV_out (c : Dev nD) (A : Buf (Elt F) ((c : Thread nD τ).loc main_v16)) :
    exitV m c A (Proc.devRef .tc main_v16) = A := by
  unfold exitV; exact Function.update_self _ _ _

theorem exitV_rest (c : Dev nD) (A : Buf (Elt F) ((c : Thread nD τ).loc main_v16)) (b : Ref sig .tc) (hb : b ≠ main_v16) :
    exitV m c A (Proc.devRef .tc b) = V m c b := by
  unfold exitV; exact Function.update_of_ne (StableHlo.devRef_ne_of_ne hb) _ _

/-- The held set, opened: the output array and the bypassing buffers. -/
theorem held_tailSet (c : Dev nD) (W : Valuation τ sig (Elt F)) :
    (StableHlo.held (c.tc : Thread nD τ) tailSet W : sProp 𝕄)
      = iprop((((c : Thread nD τ).loc main_v16) ↦{fullShare} W (Proc.devRef .tc main_v16))
          ∗ Pipeline.unscopedRest spec0 c (fun b => W (Proc.devRef .tc b))) := by
  unfold StableHlo.held tailSet
  rw [bigSep_map, bigSep_insert main_v16_not_rest]
  rfl

theorem mem_tailSet {b : Ref sig .tc} (h : b ∈ insert main_v16 restSet) : Proc.devRef (τ := τ) .tc b ∈ tailSet :=
  Finset.mem_map_of_mem _ h

/-- The four host operations after the region touch only the output array and bypassing buffers. -/
theorem tail_sub : ∀ ops ∈ ([hostOps1] : List (List (HloOp τ sig (Elt F)))), ∀ op ∈ ops, op.bufs ⊆ tailSet := by
  intro ops hops op hop
  simp only [List.mem_cons, List.mem_nil_iff, or_false] at hops
  rcases hops with rfl
  simp only [hostOps1, List.mem_cons, List.mem_nil_iff, or_false] at hop
  rcases hop with rfl | rfl | rfl | rfl
  · rw [StableHlo.nullary_bufs]
    exact Finset.singleton_subset_iff.mpr (mem_tailSet (by decide))
  · rw [StableHlo.binary_bufs]
    exact Finset.insert_subset_iff.mpr ⟨mem_tailSet (by decide), Finset.insert_subset_iff.mpr ⟨mem_tailSet (by decide),
      Finset.singleton_subset_iff.mpr (mem_tailSet (by decide))⟩⟩
  · rw [StableHlo.nullary_bufs]
    exact Finset.singleton_subset_iff.mpr (mem_tailSet (by decide))
  · rw [StableHlo.binary_bufs]
    exact Finset.insert_subset_iff.mpr ⟨mem_tailSet (by decide), Finset.insert_subset_iff.mpr ⟨mem_tailSet (by decide),
      Finset.singleton_subset_iff.mpr (mem_tailSet (by decide))⟩⟩

/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- None of them writes a buffer other than its own result: the cast copy, the output array and the arguments are kept. -/
theorem tail_keeps (b : Ref sig .tc) (hb : b ≠ main_cst_4 ∧ b ≠ main_v17 ∧ b ≠ main_cst_5 ∧ b ≠ main_v18) :
    ∀ op ∈ (hostOps1 : List (HloOp τ sig (Elt F))), Proc.devRef .tc b ∉ op.writes := by
  intro op hop
  simp only [hostOps1, List.mem_cons, List.mem_nil_iff, or_false] at hop
  rcases hop with rfl | rfl | rfl | rfl <;>
    simp only [StableHlo.nullary_writes, StableHlo.binary_writes, Finset.mem_singleton]
  · exact StableHlo.devRef_ne_of_ne hb.1
  · exact StableHlo.devRef_ne_of_ne hb.2.1
  · exact StableHlo.devRef_ne_of_ne hb.2.2.1
  · exact StableHlo.devRef_ne_of_ne hb.2.2.2

theorem tailV_out (c : Dev nD) (A : Buf (Elt F) ((c : Thread nD τ).loc main_v16)) :
    tailV m c A (Proc.devRef .tc main_v16) = A := by
  unfold tailV
  rw [StableHlo.after_of_forall_not_mem _ _ (tail_keeps main_v16 (by decide)), exitV_out]

theorem tailV_kept (c : Dev nD) (A : Buf (Elt F) ((c : Thread nD τ).loc main_v16)) (b : Ref sig .tc)
    (hb : b ≠ main_cst_4 ∧ b ≠ main_v17 ∧ b ≠ main_cst_5 ∧ b ≠ main_v18) (hb' : b ≠ main_v16) :
    tailV m c A (Proc.devRef .tc b) = V m c b := by
  unfold tailV
  rw [StableHlo.after_of_forall_not_mem _ _ (tail_keeps b hb), exitV_rest m c A b hb']

/-- The host operations before the region write neither argument. -/
theorem V_main_arg0 (c : Dev nD) : V m c main_arg0 = m ((c : Thread nD τ).loc main_arg0) := by
  dsimp only [V, V0]
  simp only [List.flatten_cons, List.flatten_nil, List.append_nil]
  refine StableHlo.after_of_forall_not_mem _ _ fun op hop => ?_
  simp only [hostOps0, List.mem_cons, List.mem_nil_iff, or_false] at hop
  rcases hop with rfl | rfl | rfl | rfl | rfl | rfl | rfl | rfl | rfl | rfl | rfl | rfl | rfl | rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)
theorem V_main_arg1 (c : Dev nD) : V m c main_arg1 = m ((c : Thread nD τ).loc main_arg1) := by
  dsimp only [V, V0]
  simp only [List.flatten_cons, List.flatten_nil, List.append_nil]
  refine StableHlo.after_of_forall_not_mem _ _ fun op hop => ?_
  simp only [hostOps0, List.mem_cons, List.mem_nil_iff, or_false] at hop
  rcases hop with rfl | rfl | rfl | rfl | rfl | rfl | rfl | rfl | rfl | rfl | rfl | rfl | rfl | rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

theorem sep_eq {M : Type} [URA M] {P P' Q Q' : sProp M} (h1 : P = P') (h2 : Q = Q') : iprop(P ∗ Q) = iprop(P' ∗ Q') := by
  rw [h1, h2]

/-- A window's array as the proof data's `arrays` holds it is a points-to of the buffer behind it at the window's share. -/
theorem arr_pt (c : Dev nD) (dat : Dat τ (Elt F) Unit ℕ (UR sig nD τ) ℕ cfg0 c) (w : Fin cfg0.W) (q : PosShare TreeShare)
    (hq : dat.share w = q) (X : Buf (Elt F) ((cfg0.win w).arr.view.loc (c.tc : Thread nD τ))) :
    ((cfg0.win w).arr.view.loc (c.tc : Thread nD τ) ↦[(cfg0.win w).arr.view.set]{dat.share w} X : sProp 𝕄)
      = (((c.tc : Thread nD τ).loc (Pipeline.arrRef spec0 w)) ↦{q} X) := by
  rw [(arr_whole0 w).set_eq_univ, hq]

/-- The six distinct buffers behind the seven windows, one by one. -/
theorem arrBufs_chain (c : Dev nD) (W : (b : Ref sig .tc) → Buf (Elt F) ((c.tc : Thread nD τ).loc b)) :
    (Pipeline.arrBufs spec0 c W : sProp 𝕄)
      = iprop((((c.tc : Thread nD τ).loc main_v0) ↦{fullShare} W main_v0) ∗ (((c.tc : Thread nD τ).loc main_v7) ↦{fullShare} W main_v7)
          ∗ (((c.tc : Thread nD τ).loc main_v13) ↦{fullShare} W main_v13) ∗ (((c.tc : Thread nD τ).loc main_v14) ↦{fullShare} W main_v14)
          ∗ (((c.tc : Thread nD τ).loc main_v15) ↦{fullShare} W main_v15) ∗ (((c.tc : Thread nD τ).loc main_v16) ↦{fullShare} W main_v16)) := by
  unfold Pipeline.arrBufs
  rw [bigSep_eq_bigSepL_of_eq [main_v0, main_v7, main_v13, main_v14, main_v15, main_v16] (by decide) (by decide)]
  rfl

/-- The seven windows' arrays at their shares, one by one. -/
theorem arrays_chain (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare) (hq4 : dat.q 4 = fullShare) (hq5 : dat.q 5 = fullShare)
    (X : (w : Fin cfg0.W) → Buf (Elt F) ((cfg0.win w).arr.view.loc (c.tc : Thread nD τ))) :
    (dat.arrays X : sProp 𝕄)
      = iprop((((c.tc : Thread nD τ).loc (Pipeline.arrRef spec0 0)) ↦{fullShare.left} X 0) ∗ (((c.tc : Thread nD τ).loc (Pipeline.arrRef spec0 1)) ↦{fullShare.right} X 1)
          ∗ (((c.tc : Thread nD τ).loc (Pipeline.arrRef spec0 2)) ↦{fullShare} X 2) ∗ (((c.tc : Thread nD τ).loc (Pipeline.arrRef spec0 3)) ↦{fullShare} X 3)
          ∗ (((c.tc : Thread nD τ).loc (Pipeline.arrRef spec0 4)) ↦{fullShare} X 4) ∗ (((c.tc : Thread nD τ).loc (Pipeline.arrRef spec0 5)) ↦{fullShare} X 5)
          ∗ (((c.tc : Thread nD τ).loc (Pipeline.arrRef spec0 6)) ↦{fullShare} X 6)) := by
  unfold Dat.arrays
  rw [bigSep_W0]
  exact sep_eq (arr_pt c dat 0 fullShare.left hq0 _) (sep_eq (arr_pt c dat 1 fullShare.right hq1 _) (sep_eq (arr_pt c dat 2 fullShare hq2 _)
    (sep_eq (arr_pt c dat 3 fullShare hq3 _) (sep_eq (arr_pt c dat 4 fullShare hq4 _) (sep_eq (arr_pt c dat 5 fullShare hq5 _) (arr_pt c dat 6 fullShare rfl _))))))

/-- ENTRY. The six distinct buffers behind the seven windows, each whole at the full share, are the windows' arrays at
    their shares: the rounded input's full share is split into the halves its two windows hold. -/
theorem deal_arrays (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare) (hq4 : dat.q 4 = fullShare) (hq5 : dat.q 5 = fullShare)
    (hA : ∀ w, dat.A w = V m c (Pipeline.arrRef spec0 w)) :
    (Pipeline.arrBufs spec0 c (V m c) : sProp 𝕄) ⊢ dat.arrays (dat.arrAt · 0) := by
  have h0 : (fun w => dat.arrAt w 0) = fun w => V m c (Pipeline.arrRef spec0 w) := funext fun w => hA w
  rw [arrBufs_chain, h0, arrays_chain c dat hq0 hq1 hq2 hq3 hq4 hq5]
  iintro ⟨H0, H7, H13, H14, H15, H16⟩
  ihave H0' := (pointsTo_share (PosShare.mem_left_op_right fullShare)).1 $$ H0
  icases H0' with ⟨Hl, Hr⟩
  isplitl [Hl]; · iexact Hl
  isplitl [Hr]; · iexact Hr
  isplitl [H7]; · iexact H7
  isplitl [H13]; · iexact H13
  isplitl [H14]; · iexact H14
  isplitl [H15]; · iexact H15
  iexact H16

/-- The bypassing buffers read through the exit contents are as the region found them. -/
theorem rest_exitV (c : Dev nD) (A : Buf (Elt F) ((c : Thread nD τ).loc main_v16)) :
    (Pipeline.unscopedRest spec0 c (fun b => exitV m c A (Proc.devRef .tc b)) : sProp 𝕄) = Pipeline.unscopedRest spec0 c (V m c) := by
  unfold Pipeline.unscopedRest
  exact bigSep_congr fun b hb => by dsimp only; rw [exitV_rest m c A b (fun e => main_v16_not_rest (e ▸ hb))]

theorem held_exit (c : Dev nD) (A : Buf (Elt F) ((c : Thread nD τ).loc main_v16)) :
    (StableHlo.held (c.tc : Thread nD τ) tailSet (exitV m c A) : sProp 𝕄)
      = iprop((((c : Thread nD τ).loc main_v16) ↦{fullShare} A) ∗ Pipeline.unscopedRest spec0 c (V m c)) := by
  rw [held_tailSet, exitV_out, rest_exitV]

theorem held_tail (c : Dev nD) (A : Buf (Elt F) ((c : Thread nD τ).loc main_v16)) :
    (StableHlo.held (c.tc : Thread nD τ) tailSet (StableHlo.after ([hostOps1] : List (List (HloOp τ sig (Elt F)))).flatten (exitV m c A)) : sProp 𝕄)
      = iprop((((c : Thread nD τ).loc main_v16) ↦{fullShare} A) ∗ Pipeline.unscopedRest spec0 c (fun b => tailV m c A (Proc.devRef .tc b))) := by
  rw [show StableHlo.after ([hostOps1] : List (List (HloOp τ sig (Elt F)))).flatten (exitV m c A) = tailV m c A from by
    unfold tailV; simp only [List.flatten_cons, List.flatten_nil, List.append_nil], held_tailSet, tailV_out]

set_option backward.isDefEq.respectTransparency.types false in
/-- THE HOST OPERATIONS AFTER THE REGION. From the region's exit — the windows' arrays at their final contents, the bypassing
    buffers as the region found them — the four operations run within the output array and the bypassing buffers and hand
    everything back, the bypassing buffers at their contents after the four. -/
theorem tail_run (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare) (hq4 : dat.q 4 = fullShare) (hq5 : dat.q 5 = fullShare)
    (Q' : PUnit → sProp 𝕄) :
    iprop((iprop(dat.arrays (dat.arrAt · cfg0.N) ∗ Pipeline.unscopedRest spec0 c (fun b => tailV m c (dat.arrAt 6 cfg0.N) (Proc.devRef .tc b))) -∗ Q' ⟨⟩)
        ∗ boundary (c.tc : Thread nD τ) ∗ dat.arrays (dat.arrAt · cfg0.N) ∗ Pipeline.unscopedRest spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have hrun := Pipeline.wp_seqs_then (Ix := Unit) (Name := ℕ) (U := UR sig nD τ) (Lvl := ℕ) (fun q => (cfgs q).toPCfg (Val := Elt F)) defs₀ Variants.none c tailSet []
    ([hostOps1] : List (List (HloOp τ sig (Elt F)))) tail_sub tail_fresh (exitV m c (dat.arrAt 6 cfg0.N)) (K := Q')
  rw [held_exit, held_tail] at hrun
  simp only [List.map_cons, List.map_nil, List.append_nil] at hrun
  rw [arrays_chain c dat hq0 hq1 hq2 hq3 hq4 hq5]
  iintro ⟨Hk, Hb, ⟨A0, A1, A2, A3, A4, A5, A6⟩, HZ⟩
  iapply hrun $$ [Hb A6 HZ]
  · isplitl [Hb]; · iexact Hb
    isplitl [A6]; · iexact A6
    iexact HZ
  iintro ⟨Hb, A6, HZ⟩
  rw [Pipeline.chain_nil, wp_pure]
  imodintro
  iapply Hk
  isplitr [HZ]
  · isplitl [A0]; · iexact A0
    isplitl [A1]; · iexact A1
    isplitl [A2]; · iexact A2
    isplitl [A3]; · iexact A3
    isplitl [A4]; · iexact A4
    isplitl [A5]; · iexact A5
    iexact A6
  iexact HZ

/-- What the four host operations compute: the sum of the output array from the zero word, divided by 8192. -/
theorem tailV_result (c : Dev nD) (A : Buf (Elt F) ((c : Thread nD τ).loc main_v16)) :
    tailV m c A (Proc.devRef .tc main_v18)
      = Host.divf (Host.reduceAdd (F := F) (s := S16x128) A (constant S_ .f32 0x00000000#32) reducesTo_S16x128_S_d0_1 h_S_) (constant S_ .f32 0x46000000#32) := by
  unfold tailV
  show StableHlo.after hostOps1 _ (Proc.devRef .tc main_v18) = _
  after_results
  rw [exitV_out]

set_option backward.isDefEq.respectTransparency.types false in
/-- THE RUN. For any proof data of the pallas_call that meets the body obligation, holds the rounded input in halves at its
    two windows and every other array outright, owes nothing and keeps the class's invariant: every weakly fair execution of
    @main terminates, the result is what the four host operations compute from the output array's final contents, and the
    arguments are unchanged. -/
theorem run_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hq4 : ∀ c, (dats 0 c).q 4 = fullShare) (hq5 : ∀ c, (dats 0 c).q 5 = fullShare)
    (howed : ∀ c t, (dats 0 c).owed t = 0)
    (hA : ∀ c w, (dats 0 c).A w = V m c (Pipeline.arrRef spec0 w))
    (hΦ : ∀ c t, (dats 0 c).Φ t = Pipeline.ΦA spec0 c) :
    θ_run defs (onTc (τ := τ) (main (F := F))) ⟨m, fun _ => 0, ρ⟩ (fun r => ∀ c : Dev nD,
      r.2.mem ((c.tc : Thread nD τ).loc main_v18) = tailV m c ((dats 0 c).arrAt 6 cfg0.N) (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) dats () cellOf_inj 0 winFacts₀0
    (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp))
    (u₀ := initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))
    (hu₀ := by
      iintro Hu; imodintro
      isplitl [Hu]; · iapply (show (ownU _ : sProp 𝕄) ⊢ BI.own (emb₁ (initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => deal_arrays m c (dats 0 c) (hq0 c) (hq1 c) (hq2 c) (hq3 c) (hq4 c) (hq5 c) (hA c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c
      (fun b => tailV m c ((dats 0 c).arrAt 6 cfg0.N) (Proc.devRef .tc b)))
    (hX := fun c => by
      rw [Pipeline.unscopedRestP_none]
      iintro ⟨HU, -, -, -, Hp, -⟩; imodintro
      isplitl [Hp]; · iexists _; iexact Hp
      iexact HU)
    (hin := fun c => by
      rw [hΦ]; unfold Pipeline.ΦA
      iintro ⟨Hp, -, Hr⟩
      isplitl [Hr] <;> iassumption)
    (hout := fun c => by
      rw [hΦ, Pipeline.ownSems0_none]; unfold Pipeline.ΦA
      iintro ⟨Hr, Hp⟩
      isplitl [Hp]; · iexact Hp
      isplitr; · iempintro
      iexact Hr)
    (htail := fun c Q' => tail_run m c (dats 0 c) (hq0 c) (hq1 c) (hq2 c) (hq3 c) (hq4 c) (hq5 c) Q')
    (QY := fun c s => ∀ b ∈ restSet, s.mem ((c.tc : Thread nD τ).loc b) = tailV m c ((dats 0 c).arrAt 6 cfg0.N) (Proc.devRef .tc b))
    (hY := fun c s' => by
      iintro ⟨-, HU, HSI⟩
      unfold Pipeline.unscopedRest
      imodintro
      iapply (pointsTo_read_all restSet (fun b => (c.tc : Thread nD τ).loc b)
        (fun b => tailV m c ((dats 0 c).arrAt 6 cfg0.N) (Proc.devRef .tc b)) s')
      isplitl [HU] <;> iassumption)
    (hQ := fun s h c => ⟨(h c).2.2 main_v18 (by decide),
      ((h c).2.2 main_arg0 (by decide)).trans ((tailV_kept m c _ main_arg0 (by decide) (by decide)).trans (V_main_arg0 m c)),
      ((h c).2.2 main_arg1 (by decide)).trans ((tailV_kept m c _ main_arg1 (by decide) (by decide)).trans (V_main_arg1 m c))⟩)

end Cert.Kernel.Hand

end
-- ==== Proof.K.RunA.lean ====
/-
  The body's run at a point where the two inner grid coordinates are zero (the reset case): on whole staging
  memrefs, the six inputs' at given contents and the output's at anything, the body runs to a continuation that
  holds the inputs' as they were and the output's buffer with the pieces its two stores wrote (the zero tile,
  then the zero tile read back plus the point's partial sum). The pieces are the witness the run finds.
-/
import proofs.«121745_j76081050681843_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The reset case: the pieces the output's staging memref ends with (last first), with the body's triple. -/
noncomputable def runReset (c : Dev nD) (i : grid0.Coords) (a0 : Memref sig .tc .vmem S1024x256 .bf16) (h0 : a0.IsWhole) (a1 : Memref sig .tc .vmem S1024x256 .bf16) (h1 : a1.IsWhole) (a2 : Memref sig .tc .vmem S1024x1 .f32) (h2 : a2.IsWhole) (a3 : Memref sig .tc .vmem S1x1024 .f32) (h3 : a3.IsWhole) (a4 : Memref sig .tc .vmem S1024x1 .i32) (h4 : a4.IsWhole) (a5 : Memref sig .tc .vmem S1x1024 .i32) (h5 : a5.IsWhole) (a6 : Memref sig .tc .vmem S8x128 .f32) (h6 : a6.IsWhole) (hc : resetCond i)
    (x0 : Vec F S1024x256 .bf16) (x1 : Vec F S1024x256 .bf16) (x2 : Vec F S1024x1 .f32) (x3 : Vec F S1x1024 .f32) (x4 : Vec F S1024x1 .i32) (x5 : Vec F S1x1024 .i32) :
    { L : List (View.Piece (Elt F) S8x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ f, a6.view.loc (c : Thread nD τ) ↦[a6.view.set]{fullShare} a6.view.writes (Elt F) f L)) -∗ K ⟨⟩))
          ⊢ wp frame (wpE (defs₀ (F := F)) Variants.none c none) E (cc0__contrastive_kernel i a0 h0 a1 h1 a2 h2 a3 h3 a4 h4 a5 h5 a6 h6) K } := by
  refine ⟨?_, fun E K => ?run⟩
  case run =>
    simp only [cc0__contrastive_kernel_eq_skeleton]; unfold cc0__contrastive_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := h0.eq_unread hf0; obtain rfl := h1.eq_unread hf1; obtain rfl := h2.eq_unread hf2
    obtain rfl := h3.eq_unread hf3; obtain rfl := h4.eq_unread hf4; obtain rfl := h5.eq_unread hf5
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    iexists _; iexact H6

end Cert.Kernel.Hand

end
-- ==== Proof.K.RunB.lean ====
/-
  The body's run at a point where one of the two inner grid coordinates is not zero (the accumulating case): on
  whole staging memrefs, the six inputs' at given contents and the output's at its running contents, the body runs
  to a continuation that holds the inputs' as they were and the output's buffer with the piece its one store wrote
  (the running tile plus the point's partial sum). The piece is the witness the run finds.
-/
import proofs.«121745_j76081050681843_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The accumulating case: the pieces the output's staging memref ends with, with the body's triple. -/
noncomputable def runAcc (c : Dev nD) (i : grid0.Coords) (a0 : Memref sig .tc .vmem S1024x256 .bf16) (h0 : a0.IsWhole) (a1 : Memref sig .tc .vmem S1024x256 .bf16) (h1 : a1.IsWhole) (a2 : Memref sig .tc .vmem S1024x1 .f32) (h2 : a2.IsWhole) (a3 : Memref sig .tc .vmem S1x1024 .f32) (h3 : a3.IsWhole) (a4 : Memref sig .tc .vmem S1024x1 .i32) (h4 : a4.IsWhole) (a5 : Memref sig .tc .vmem S1x1024 .i32) (h5 : a5.IsWhole) (a6 : Memref sig .tc .vmem S8x128 .f32) (h6 : a6.IsWhole) (hc : ¬resetCond i)
    (x0 : Vec F S1024x256 .bf16) (x1 : Vec F S1024x256 .bf16) (x2 : Vec F S1024x1 .f32) (x3 : Vec F S1x1024 .f32) (x4 : Vec F S1024x1 .i32) (x5 : Vec F S1x1024 .i32) (xo : Vec F S8x128 .f32) :
    { L : List (View.Piece (Elt F) S8x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare xo
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ f, a6.view.loc (c : Thread nD τ) ↦[a6.view.set]{fullShare} a6.view.writes (Elt F) f L)) -∗ K ⟨⟩))
          ⊢ wp frame (wpE (defs₀ (F := F)) Variants.none c none) E (cc0__contrastive_kernel i a0 h0 a1 h1 a2 h2 a3 h3 a4 h4 a5 h5 a6 h6) K } := by
  refine ⟨?_, fun E K => ?run⟩
  case run =>
    simp only [cc0__contrastive_kernel_eq_skeleton]; unfold cc0__contrastive_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h0.eq_unread hf0; obtain rfl := h1.eq_unread hf1; obtain rfl := h2.eq_unread hf2
    obtain rfl := h3.eq_unread hf3; obtain rfl := h4.eq_unread hf4; obtain rfl := h5.eq_unread hf5
    obtain rfl := h6.eq_unread hf6
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    iexists _; iexact H6

end Cert.Kernel.Hand

end
-- ==== Proof.K.Data.lean ====
/-
  The proof data of the one pipeline and its body obligation. What the output's staging tile holds after the body
  at each point is defined by recursion on the point: at the first of a core's 32 points the reset case's pieces
  read back, elsewhere the accumulating case's over what the point before left (the tile is not written back
  between: it is flushed only after a core's last point). The six inputs' staging buffers hold their blocks at
  every point, fetched there or not.
-/
import proofs.«121745_j76081050681843_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset case's two stores tile the output's tile, so they cover it. -/
theorem coverReset (c : Dev nD) (i : grid0.Coords) (a0 : Memref sig .tc .vmem S1024x256 .bf16) (h0 : a0.IsWhole) (a1 : Memref sig .tc .vmem S1024x256 .bf16) (h1 : a1.IsWhole) (a2 : Memref sig .tc .vmem S1024x1 .f32) (h2 : a2.IsWhole) (a3 : Memref sig .tc .vmem S1x1024 .f32) (h3 : a3.IsWhole) (a4 : Memref sig .tc .vmem S1024x1 .i32) (h4 : a4.IsWhole) (a5 : Memref sig .tc .vmem S1x1024 .i32) (h5 : a5.IsWhole) (a6 : Memref sig .tc .vmem S8x128 .f32) (h6 : a6.IsWhole) (hc : resetCond i)
    (x0 : Vec F S1024x256 .bf16) (x1 : Vec F S1024x256 .bf16) (x2 : Vec F S1024x1 .f32) (x3 : Vec F S1x1024 .f32) (x4 : Vec F S1024x1 .i32) (x5 : Vec F S1x1024 .i32) (y : S8x128.Idx) :
    ∃ pc ∈ (runReset c i a0 h0 a1 h1 a2 h2 a3 h3 a4 h4 a5 h5 a6 h6 hc x0 x1 x2 x3 x4 x5).1, y ∈ pc.1.set :=
  View.cover_of_tiledL (runReset c i a0 h0 a1 h1 a2 h2 a3 h3 a4 h4 a5 h5 a6 h6 hc x0 x1 x2 x3 x4 x5).1 S8x128.size (by sl_kernel_rfl) y

/-- What the reset case leaves in the output's staging tile: its pieces read back over anything. -/
def outReset (c : Dev nD) (i : grid0.Coords) (a0 : Memref sig .tc .vmem S1024x256 .bf16) (h0 : a0.IsWhole) (a1 : Memref sig .tc .vmem S1024x256 .bf16) (h1 : a1.IsWhole) (a2 : Memref sig .tc .vmem S1024x1 .f32) (h2 : a2.IsWhole) (a3 : Memref sig .tc .vmem S1x1024 .f32) (h3 : a3.IsWhole) (a4 : Memref sig .tc .vmem S1024x1 .i32) (h4 : a4.IsWhole) (a5 : Memref sig .tc .vmem S1x1024 .i32) (h5 : a5.IsWhole) (a6 : Memref sig .tc .vmem S8x128 .f32) (h6 : a6.IsWhole) (hc : resetCond i)
    (x0 : Vec F S1024x256 .bf16) (x1 : Vec F S1024x256 .bf16) (x2 : Vec F S1024x1 .f32) (x3 : Vec F S1x1024 .f32) (x4 : Vec F S1024x1 .i32) (x5 : Vec F S1x1024 .i32) : Vec F S8x128 .f32 :=
  VO.read (Elt F) (VO.writes (Elt F) VO.junk (runReset c i a0 h0 a1 h1 a2 h2 a3 h3 a4 h4 a5 h5 a6 h6 hc x0 x1 x2 x3 x4 x5).1)

/-- The accumulating case's one store covers the output's tile. -/
theorem coverAcc (c : Dev nD) (i : grid0.Coords) (a0 : Memref sig .tc .vmem S1024x256 .bf16) (h0 : a0.IsWhole) (a1 : Memref sig .tc .vmem S1024x256 .bf16) (h1 : a1.IsWhole) (a2 : Memref sig .tc .vmem S1024x1 .f32) (h2 : a2.IsWhole) (a3 : Memref sig .tc .vmem S1x1024 .f32) (h3 : a3.IsWhole) (a4 : Memref sig .tc .vmem S1024x1 .i32) (h4 : a4.IsWhole) (a5 : Memref sig .tc .vmem S1x1024 .i32) (h5 : a5.IsWhole) (a6 : Memref sig .tc .vmem S8x128 .f32) (h6 : a6.IsWhole) (hc : ¬resetCond i)
    (x0 : Vec F S1024x256 .bf16) (x1 : Vec F S1024x256 .bf16) (x2 : Vec F S1024x1 .f32) (x3 : Vec F S1x1024 .f32) (x4 : Vec F S1024x1 .i32) (x5 : Vec F S1x1024 .i32) (xo : Vec F S8x128 .f32) (y : S8x128.Idx) :
    ∃ pc ∈ (runAcc c i a0 h0 a1 h1 a2 h2 a3 h3 a4 h4 a5 h5 a6 h6 hc x0 x1 x2 x3 x4 x5 xo).1, y ∈ pc.1.set :=
  View.cover_of_tiledL (runAcc c i a0 h0 a1 h1 a2 h2 a3 h3 a4 h4 a5 h5 a6 h6 hc x0 x1 x2 x3 x4 x5 xo).1 S8x128.size (by sl_kernel_rfl) y

/-- What the accumulating case leaves in the output's staging tile holding `xo`: its piece read back. -/
def outAcc (c : Dev nD) (i : grid0.Coords) (a0 : Memref sig .tc .vmem S1024x256 .bf16) (h0 : a0.IsWhole) (a1 : Memref sig .tc .vmem S1024x256 .bf16) (h1 : a1.IsWhole) (a2 : Memref sig .tc .vmem S1024x1 .f32) (h2 : a2.IsWhole) (a3 : Memref sig .tc .vmem S1x1024 .f32) (h3 : a3.IsWhole) (a4 : Memref sig .tc .vmem S1024x1 .i32) (h4 : a4.IsWhole) (a5 : Memref sig .tc .vmem S1x1024 .i32) (h5 : a5.IsWhole) (a6 : Memref sig .tc .vmem S8x128 .f32) (h6 : a6.IsWhole) (hc : ¬resetCond i)
    (x0 : Vec F S1024x256 .bf16) (x1 : Vec F S1024x256 .bf16) (x2 : Vec F S1024x1 .f32) (x3 : Vec F S1x1024 .f32) (x4 : Vec F S1024x1 .i32) (x5 : Vec F S1x1024 .i32) (xo : Vec F S8x128 .f32) : Vec F S8x128 .f32 :=
  VO.read (Elt F) (VO.writes (Elt F) VO.junk (runAcc c i a0 h0 a1 h1 a2 h2 a3 h3 a4 h4 a5 h5 a6 h6 hc x0 x1 x2 x3 x4 x5 xo).1)

/-! ## What the output's staging tile holds after each point -/

/-- After the body at position `n`: the reset case at the first of each core's 32 points, the accumulating case
    elsewhere, over what this leaves at `n - 1`. -/
def outsAt (c : Dev nD) : (n : ℕ) → n < cfg0.N → Vec F S8x128 .f32
  | 0, hn => outReset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((resetCond_iff ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h : (n + 1) % 32 = 0 then
      outReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((resetCond_iff ⟨n + 1, hn⟩).mpr h) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      outAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h' => h ((resetCond_iff ⟨n + 1, hn⟩).mp h')) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn))

/-- At a reset point: the reset case's contents. -/
theorem outsAt_reset (c : Dev nD) (t : Fin cfg0.N) (h : t.val % 32 = 0) :
    outsAt m c t.val t.isLt = outReset c (grid0.coords t) (ms0 t) (hs0 t) (ms1 t) (hs1 t) (ms2 t) (hs2 t) (ms3 t) (hs3 t) (ms4 t) (hs4 t) (ms5 t) (hs5 t) (ms6 t) (hs6 t) ((resetCond_iff t).mpr h) (iblk m c 0 t) (iblk m c 1 t) (iblk m c 2 t) (iblk m c 3 t) (iblk m c 4 t) (iblk m c 5 t) := by
  obtain ⟨n, hn⟩ := t
  cases n with
  | zero => exact rfl
  | succ n => exact (dif_pos h).trans rfl

/-- At an accumulating point: the accumulating case's contents, over what the point before left. -/
theorem outsAt_acc (c : Dev nD) (t : Fin cfg0.N) (h : ¬t.val % 32 = 0) :
    outsAt m c t.val t.isLt = outAcc c (grid0.coords t) (ms0 t) (hs0 t) (ms1 t) (hs1 t) (ms2 t) (hs2 t) (ms3 t) (hs3 t) (ms4 t) (hs4 t) (ms5 t) (hs5 t) (ms6 t) (hs6 t) (fun h' => h ((resetCond_iff t).mp h')) (iblk m c 0 t) (iblk m c 1 t) (iblk m c 2 t) (iblk m c 3 t) (iblk m c 4 t) (iblk m c 5 t) (outsAt m c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (dif_neg h).trans rfl

/-! ## The pipeline's proof data -/

/-- The proof data of the one pipeline on core `c`: the arrays as the region finds them; after the body at point
    `t` each input's buffer at its block and the output's at `outsAt`; nothing owed. The two windows that read the
    same array hold a half share of it each, the others full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outsAt m c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

/-- The proof data's arrays are the region-entry contents (the definition projected, `V` never unfolded). -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outsAt m c t.val t.isLt := by dsimp only [dats]

/-- Each input's current staging buffer holds its block at every point, fetched there or not: unfetched, the block
    index has not moved; the windows are uncut and never idle. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)

/-- At an accumulating point the output's current staging tile holds what the body left at the point before: the
    point is not the first, and the tile was not written back between (it is flushed only at the points ≡ 31
    modulo 32, and the point before an accumulating point is not one of those). -/
theorem before6_acc (c : Dev nD) (t : Fin cfg0.N) (h : ¬t.val % 32 = 0) (d) :
    (dats m 0 c).before 6 t d = outsAt m c (t.val - 1) (Nat.lt_of_le_of_lt (Nat.sub_le _ _) t.isLt) := by
  have hN : t.val < 64 := lt_of_lt_of_eq t.isLt (show cfg0.N = 64 from N_0)
  rw [Dat.before_out_kept _ 6 rfl t (by omega) (Bool.eq_false_iff.mpr fun h' => by have := (flush0_6 _).mp h'; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
/-- The body at any point: the inputs' memrefs hold their blocks; the point is a reset point or an accumulating
    one, where the output's tile holds what the point before left; so the case's run applies; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  have hN : t.val < 64 := lt_of_lt_of_eq t.isLt (show cfg0.N = 64 from N_0)
  by_cases h : t.val % 32 = 0
  · rw [outsAt_reset m c t h]
    unfold outReset
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runReset c (grid0.coords t) _ _ _ _ _ _ _ _ _ _ _ _ _ _ ((resetCond_iff t).mpr h) (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverReset c _ _ _ _ _ _ _ _ _ _ _ _ _ _ _ _ _ _ _ _ _ _)
  · rw [outsAt_acc m c t h]
    simp only [before6_acc m c t h]
    unfold outAcc
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runAcc c (grid0.coords t) _ _ _ _ _ _ _ _ _ _ _ _ _ _ (fun h' => h ((resetCond_iff t).mp h')) (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverAcc c _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Run.lean ====
/-
  The run of the whole program at its proof data, and the frame: the arguments end unchanged.
-/
import proofs.«121745_j76081050681843_2_alg».proof.Proof.K.Launch
import proofs.«121745_j76081050681843_2_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates; the result buffer holds what the four host operations after the
    region compute from the output array's final contents, and the two arguments are unchanged. -/
theorem run_main : θ_run defs (onTc (τ := τ) (main (F := F))) ⟨m, fun _ => 0, ρ⟩ (fun r => ∀ c : Dev nD,
      r.2.mem ((c.tc : Thread nD τ).loc main_v18) = tailV m c ((dats m 0 c).arrAt 6 cfg0.N) (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of m ρ (dats m) (fun c => (body_obligation m c).loose) (fun _ => rfl) (fun _ => rfl) (fun _ => rfl) (fun _ => rfl)
    (fun _ => rfl) (fun _ => rfl) (fun _ _ => rfl) (A_eq m) (fun _ _ => rfl)

/-- The frame: the program runs to its end and leaves its arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.KI.Base.lean ====
/-
  What the run of the pallas_call and its value share: the contents of the core's buffers when the region is
  entered (the host operations before it applied to the launch memory), @main as those operations, the region and
  the operations after it, and each window's block at a grid point read off its array.
-/
import proofs.«121745_j76081050681843_2_alg».proof.Proof.Gen.KernelIdeal.Launch
import proofs.«121745_j76081050681843_2_alg».proof.Proof.Gen.KernelIdeal.Skeleton
import proofs.«121745_j76081050681843_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffer contents when the region is entered: the 21 host operations before it, applied in order to
    the launch memory. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the four host operations after it: it reduces
    to the region continued by those four, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body resets its output tile exactly when the two inner grid coordinates are zero. -/
abbrev resetCond (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- That is at the first of each core's 32 points. -/
theorem resetCond_iff : ∀ t : Fin cfg0.N, resetCond (grid0.coords t) ↔ t.val % 32 = 0 :=
  (by decide +kernel : ∀ t : Fin grid0.N, resetCond (grid0.coords t) ↔ t.val % 32 = 0)

/-- One staging buffer of the output window, through which its contents are stated. -/
abbrev VO : View sig .tc .vmem S8x128 .f32 := (Memref.whole cc0_stg6_0 : Memref sig .tc .vmem S8x128 .f32).view
/-- Each window's current staging memref at point `t`, and that it is a whole buffer. -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x128 .f32 := win0_6.stage (cfg0.slots t 6)
abbrev hs6 (t : Fin cfg0.N) : (ms6 t).IsWhole := hstage0_6 ((cfg0.slots t 6).cast nbuf0_6)

end Cert.KernelIdeal.Hand

end
-- ==== Proof.KI.Launch.lean ====
/-
  The run of the whole program from the proof data of its one pallas_call.  Two input windows of the call read one
  array (the rounded input), so the array's full share is dealt to them in halves when the region is entered; the output
  array is held outright.  After the region four host operations sum the output array and divide by 8192: they read the
  output array and the buffers that bypass the region, and write none of the windows' arrays.
-/
import proofs.«121745_j76081050681843_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The unscoped buffers that are no window's array. -/
abbrev restSet : Finset (Ref sig .tc) :=
  (Finset.univ.filter fun b : Ref sig .tc => ¬ b.isScoped) \ Finset.univ.image (Pipeline.arrRef spec0)

/-- The buffers the host operations after the region run within: the output array and the buffers that bypass the region. -/
abbrev tailSet : Finset (DevRef τ sig) :=
  (insert main_v16 restSet).map ⟨Proc.devRef (sig := sig) (.tc : Proc τ), Proc.devRef_injective _⟩

theorem main_v16_not_rest : main_v16 ∉ restSet := by decide

/-- The buffers' contents when the region exits, as far as the later host operations read them: the output array at
    `A`, every other buffer as the region found it. -/
def exitV (c : Dev nD) (A : Buf (Elt F) ((c : Thread nD τ).loc main_v16)) : Valuation τ sig (Elt F) :=
  Function.update (V0 m c) (Proc.devRef .tc main_v16) A

/-- And after the four host operations that follow the region. -/
def tailV (c : Dev nD) (A : Buf (Elt F) ((c : Thread nD τ).loc main_v16)) : Valuation τ sig (Elt F) :=
  StableHlo.after hostOps1 (exitV m c A)

theorem exitV_out (c : Dev nD) (A : Buf (Elt F) ((c : Thread nD τ).loc main_v16)) :
    exitV m c A (Proc.devRef .tc main_v16) = A := by
  unfold exitV; exact Function.update_self _ _ _

theorem exitV_rest (c : Dev nD) (A : Buf (Elt F) ((c : Thread nD τ).loc main_v16)) (b : Ref sig .tc) (hb : b ≠ main_v16) :
    exitV m c A (Proc.devRef .tc b) = V m c b := by
  unfold exitV; exact Function.update_of_ne (StableHlo.devRef_ne_of_ne hb) _ _

/-- The held set, opened: the output array and the bypassing buffers. -/
theorem held_tailSet (c : Dev nD) (W : Valuation τ sig (Elt F)) :
    (StableHlo.held (c.tc : Thread nD τ) tailSet W : sProp 𝕄)
      = iprop((((c : Thread nD τ).loc main_v16) ↦{fullShare} W (Proc.devRef .tc main_v16))
          ∗ Pipeline.unscopedRest spec0 c (fun b => W (Proc.devRef .tc b))) := by
  unfold StableHlo.held tailSet
  rw [bigSep_map, bigSep_insert main_v16_not_rest]
  rfl

theorem mem_tailSet {b : Ref sig .tc} (h : b ∈ insert main_v16 restSet) : Proc.devRef (τ := τ) .tc b ∈ tailSet :=
  Finset.mem_map_of_mem _ h

/-- The four host operations after the region touch only the output array and bypassing buffers. -/
theorem tail_sub : ∀ ops ∈ ([hostOps1] : List (List (HloOp τ sig (Elt F)))), ∀ op ∈ ops, op.bufs ⊆ tailSet := by
  intro ops hops op hop
  simp only [List.mem_cons, List.mem_nil_iff, or_false] at hops
  rcases hops with rfl
  simp only [hostOps1, List.mem_cons, List.mem_nil_iff, or_false] at hop
  rcases hop with rfl | rfl | rfl | rfl
  · rw [StableHlo.nullary_bufs]
    exact Finset.singleton_subset_iff.mpr (mem_tailSet (by decide))
  · rw [StableHlo.binary_bufs]
    exact Finset.insert_subset_iff.mpr ⟨mem_tailSet (by decide), Finset.insert_subset_iff.mpr ⟨mem_tailSet (by decide),
      Finset.singleton_subset_iff.mpr (mem_tailSet (by decide))⟩⟩
  · rw [StableHlo.nullary_bufs]
    exact Finset.singleton_subset_iff.mpr (mem_tailSet (by decide))
  · rw [StableHlo.binary_bufs]
    exact Finset.insert_subset_iff.mpr ⟨mem_tailSet (by decide), Finset.insert_subset_iff.mpr ⟨mem_tailSet (by decide),
      Finset.singleton_subset_iff.mpr (mem_tailSet (by decide))⟩⟩

/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- None of them writes a buffer other than its own result: the cast copy, the output array and the arguments are kept. -/
theorem tail_keeps (b : Ref sig .tc) (hb : b ≠ main_cst_4 ∧ b ≠ main_v17 ∧ b ≠ main_cst_5 ∧ b ≠ main_v18) :
    ∀ op ∈ (hostOps1 : List (HloOp τ sig (Elt F))), Proc.devRef .tc b ∉ op.writes := by
  intro op hop
  simp only [hostOps1, List.mem_cons, List.mem_nil_iff, or_false] at hop
  rcases hop with rfl | rfl | rfl | rfl <;>
    simp only [StableHlo.nullary_writes, StableHlo.binary_writes, Finset.mem_singleton]
  · exact StableHlo.devRef_ne_of_ne hb.1
  · exact StableHlo.devRef_ne_of_ne hb.2.1
  · exact StableHlo.devRef_ne_of_ne hb.2.2.1
  · exact StableHlo.devRef_ne_of_ne hb.2.2.2

theorem tailV_out (c : Dev nD) (A : Buf (Elt F) ((c : Thread nD τ).loc main_v16)) :
    tailV m c A (Proc.devRef .tc main_v16) = A := by
  unfold tailV
  rw [StableHlo.after_of_forall_not_mem _ _ (tail_keeps main_v16 (by decide)), exitV_out]

theorem tailV_kept (c : Dev nD) (A : Buf (Elt F) ((c : Thread nD τ).loc main_v16)) (b : Ref sig .tc)
    (hb : b ≠ main_cst_4 ∧ b ≠ main_v17 ∧ b ≠ main_cst_5 ∧ b ≠ main_v18) (hb' : b ≠ main_v16) :
    tailV m c A (Proc.devRef .tc b) = V m c b := by
  unfold tailV
  rw [StableHlo.after_of_forall_not_mem _ _ (tail_keeps b hb), exitV_rest m c A b hb']

/-- The host operations before the region write neither argument. -/
theorem V_main_arg0 (c : Dev nD) : V m c main_arg0 = m ((c : Thread nD τ).loc main_arg0) := by
  dsimp only [V, V0]
  simp only [List.flatten_cons, List.flatten_nil, List.append_nil]
  refine StableHlo.after_of_forall_not_mem _ _ fun op hop => ?_
  simp only [hostOps0, List.mem_cons, List.mem_nil_iff, or_false] at hop
  rcases hop with rfl | rfl | rfl | rfl | rfl | rfl | rfl | rfl | rfl | rfl | rfl | rfl | rfl | rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)
theorem V_main_arg1 (c : Dev nD) : V m c main_arg1 = m ((c : Thread nD τ).loc main_arg1) := by
  dsimp only [V, V0]
  simp only [List.flatten_cons, List.flatten_nil, List.append_nil]
  refine StableHlo.after_of_forall_not_mem _ _ fun op hop => ?_
  simp only [hostOps0, List.mem_cons, List.mem_nil_iff, or_false] at hop
  rcases hop with rfl | rfl | rfl | rfl | rfl | rfl | rfl | rfl | rfl | rfl | rfl | rfl | rfl | rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

theorem sep_eq {M : Type} [URA M] {P P' Q Q' : sProp M} (h1 : P = P') (h2 : Q = Q') : iprop(P ∗ Q) = iprop(P' ∗ Q') := by
  rw [h1, h2]

/-- A window's array as the proof data's `arrays` holds it is a points-to of the buffer behind it at the window's share. -/
theorem arr_pt (c : Dev nD) (dat : Dat τ (Elt F) Unit ℕ (UR sig nD τ) ℕ cfg0 c) (w : Fin cfg0.W) (q : PosShare TreeShare)
    (hq : dat.share w = q) (X : Buf (Elt F) ((cfg0.win w).arr.view.loc (c.tc : Thread nD τ))) :
    ((cfg0.win w).arr.view.loc (c.tc : Thread nD τ) ↦[(cfg0.win w).arr.view.set]{dat.share w} X : sProp 𝕄)
      = (((c.tc : Thread nD τ).loc (Pipeline.arrRef spec0 w)) ↦{q} X) := by
  rw [(arr_whole0 w).set_eq_univ, hq]

/-- The six distinct buffers behind the seven windows, one by one. -/
theorem arrBufs_chain (c : Dev nD) (W : (b : Ref sig .tc) → Buf (Elt F) ((c.tc : Thread nD τ).loc b)) :
    (Pipeline.arrBufs spec0 c W : sProp 𝕄)
      = iprop((((c.tc : Thread nD τ).loc main_v0) ↦{fullShare} W main_v0) ∗ (((c.tc : Thread nD τ).loc main_v7) ↦{fullShare} W main_v7)
          ∗ (((c.tc : Thread nD τ).loc main_v13) ↦{fullShare} W main_v13) ∗ (((c.tc : Thread nD τ).loc main_v14) ↦{fullShare} W main_v14)
          ∗ (((c.tc : Thread nD τ).loc main_v15) ↦{fullShare} W main_v15) ∗ (((c.tc : Thread nD τ).loc main_v16) ↦{fullShare} W main_v16)) := by
  unfold Pipeline.arrBufs
  rw [bigSep_eq_bigSepL_of_eq [main_v0, main_v7, main_v13, main_v14, main_v15, main_v16] (by decide) (by decide)]
  rfl

/-- The seven windows' arrays at their shares, one by one. -/
theorem arrays_chain (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare) (hq4 : dat.q 4 = fullShare) (hq5 : dat.q 5 = fullShare)
    (X : (w : Fin cfg0.W) → Buf (Elt F) ((cfg0.win w).arr.view.loc (c.tc : Thread nD τ))) :
    (dat.arrays X : sProp 𝕄)
      = iprop((((c.tc : Thread nD τ).loc (Pipeline.arrRef spec0 0)) ↦{fullShare.left} X 0) ∗ (((c.tc : Thread nD τ).loc (Pipeline.arrRef spec0 1)) ↦{fullShare.right} X 1)
          ∗ (((c.tc : Thread nD τ).loc (Pipeline.arrRef spec0 2)) ↦{fullShare} X 2) ∗ (((c.tc : Thread nD τ).loc (Pipeline.arrRef spec0 3)) ↦{fullShare} X 3)
          ∗ (((c.tc : Thread nD τ).loc (Pipeline.arrRef spec0 4)) ↦{fullShare} X 4) ∗ (((c.tc : Thread nD τ).loc (Pipeline.arrRef spec0 5)) ↦{fullShare} X 5)
          ∗ (((c.tc : Thread nD τ).loc (Pipeline.arrRef spec0 6)) ↦{fullShare} X 6)) := by
  unfold Dat.arrays
  rw [bigSep_W0]
  exact sep_eq (arr_pt c dat 0 fullShare.left hq0 _) (sep_eq (arr_pt c dat 1 fullShare.right hq1 _) (sep_eq (arr_pt c dat 2 fullShare hq2 _)
    (sep_eq (arr_pt c dat 3 fullShare hq3 _) (sep_eq (arr_pt c dat 4 fullShare hq4 _) (sep_eq (arr_pt c dat 5 fullShare hq5 _) (arr_pt c dat 6 fullShare rfl _))))))

/-- ENTRY. The six distinct buffers behind the seven windows, each whole at the full share, are the windows' arrays at
    their shares: the rounded input's full share is split into the halves its two windows hold. -/
theorem deal_arrays (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare) (hq4 : dat.q 4 = fullShare) (hq5 : dat.q 5 = fullShare)
    (hA : ∀ w, dat.A w = V m c (Pipeline.arrRef spec0 w)) :
    (Pipeline.arrBufs spec0 c (V m c) : sProp 𝕄) ⊢ dat.arrays (dat.arrAt · 0) := by
  have h0 : (fun w => dat.arrAt w 0) = fun w => V m c (Pipeline.arrRef spec0 w) := funext fun w => hA w
  rw [arrBufs_chain, h0, arrays_chain c dat hq0 hq1 hq2 hq3 hq4 hq5]
  iintro ⟨H0, H7, H13, H14, H15, H16⟩
  ihave H0' := (pointsTo_share (PosShare.mem_left_op_right fullShare)).1 $$ H0
  icases H0' with ⟨Hl, Hr⟩
  isplitl [Hl]; · iexact Hl
  isplitl [Hr]; · iexact Hr
  isplitl [H7]; · iexact H7
  isplitl [H13]; · iexact H13
  isplitl [H14]; · iexact H14
  isplitl [H15]; · iexact H15
  iexact H16

/-- The bypassing buffers read through the exit contents are as the region found them. -/
theorem rest_exitV (c : Dev nD) (A : Buf (Elt F) ((c : Thread nD τ).loc main_v16)) :
    (Pipeline.unscopedRest spec0 c (fun b => exitV m c A (Proc.devRef .tc b)) : sProp 𝕄) = Pipeline.unscopedRest spec0 c (V m c) := by
  unfold Pipeline.unscopedRest
  exact bigSep_congr fun b hb => by dsimp only; rw [exitV_rest m c A b (fun e => main_v16_not_rest (e ▸ hb))]

theorem held_exit (c : Dev nD) (A : Buf (Elt F) ((c : Thread nD τ).loc main_v16)) :
    (StableHlo.held (c.tc : Thread nD τ) tailSet (exitV m c A) : sProp 𝕄)
      = iprop((((c : Thread nD τ).loc main_v16) ↦{fullShare} A) ∗ Pipeline.unscopedRest spec0 c (V m c)) := by
  rw [held_tailSet, exitV_out, rest_exitV]

theorem held_tail (c : Dev nD) (A : Buf (Elt F) ((c : Thread nD τ).loc main_v16)) :
    (StableHlo.held (c.tc : Thread nD τ) tailSet (StableHlo.after ([hostOps1] : List (List (HloOp τ sig (Elt F)))).flatten (exitV m c A)) : sProp 𝕄)
      = iprop((((c : Thread nD τ).loc main_v16) ↦{fullShare} A) ∗ Pipeline.unscopedRest spec0 c (fun b => tailV m c A (Proc.devRef .tc b))) := by
  rw [show StableHlo.after ([hostOps1] : List (List (HloOp τ sig (Elt F)))).flatten (exitV m c A) = tailV m c A from by
    unfold tailV; simp only [List.flatten_cons, List.flatten_nil, List.append_nil], held_tailSet, tailV_out]

set_option backward.isDefEq.respectTransparency.types false in
/-- THE HOST OPERATIONS AFTER THE REGION. From the region's exit — the windows' arrays at their final contents, the bypassing
    buffers as the region found them — the four operations run within the output array and the bypassing buffers and hand
    everything back, the bypassing buffers at their contents after the four. -/
theorem tail_run (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare) (hq4 : dat.q 4 = fullShare) (hq5 : dat.q 5 = fullShare)
    (Q' : PUnit → sProp 𝕄) :
    iprop((iprop(dat.arrays (dat.arrAt · cfg0.N) ∗ Pipeline.unscopedRest spec0 c (fun b => tailV m c (dat.arrAt 6 cfg0.N) (Proc.devRef .tc b))) -∗ Q' ⟨⟩)
        ∗ boundary (c.tc : Thread nD τ) ∗ dat.arrays (dat.arrAt · cfg0.N) ∗ Pipeline.unscopedRest spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have hrun := Pipeline.wp_seqs_then (Ix := Unit) (Name := ℕ) (U := UR sig nD τ) (Lvl := ℕ) (fun q => (cfgs q).toPCfg (Val := Elt F)) defs₀ Variants.none c tailSet []
    ([hostOps1] : List (List (HloOp τ sig (Elt F)))) tail_sub tail_fresh (exitV m c (dat.arrAt 6 cfg0.N)) (K := Q')
  rw [held_exit, held_tail] at hrun
  simp only [List.map_cons, List.map_nil, List.append_nil] at hrun
  rw [arrays_chain c dat hq0 hq1 hq2 hq3 hq4 hq5]
  iintro ⟨Hk, Hb, ⟨A0, A1, A2, A3, A4, A5, A6⟩, HZ⟩
  iapply hrun $$ [Hb A6 HZ]
  · isplitl [Hb]; · iexact Hb
    isplitl [A6]; · iexact A6
    iexact HZ
  iintro ⟨Hb, A6, HZ⟩
  rw [Pipeline.chain_nil, wp_pure]
  imodintro
  iapply Hk
  isplitr [HZ]
  · isplitl [A0]; · iexact A0
    isplitl [A1]; · iexact A1
    isplitl [A2]; · iexact A2
    isplitl [A3]; · iexact A3
    isplitl [A4]; · iexact A4
    isplitl [A5]; · iexact A5
    iexact A6
  iexact HZ

/-- What the four host operations compute: the sum of the output array from the zero word, divided by 8192. -/
theorem tailV_result (c : Dev nD) (A : Buf (Elt F) ((c : Thread nD τ).loc main_v16)) :
    tailV m c A (Proc.devRef .tc main_v18)
      = Host.divf (Host.reduceAdd (F := F) (s := S16x128) A (constant S_ .f32 0x00000000#32) reducesTo_S16x128_S_d0_1 h_S_) (constant S_ .f32 0x46000000#32) := by
  unfold tailV
  show StableHlo.after hostOps1 _ (Proc.devRef .tc main_v18) = _
  after_results
  rw [exitV_out]

set_option backward.isDefEq.respectTransparency.types false in
/-- THE RUN. For any proof data of the pallas_call that meets the body obligation, holds the rounded input in halves at its
    two windows and every other array outright, owes nothing and keeps the class's invariant: every weakly fair execution of
    @main terminates, the result is what the four host operations compute from the output array's final contents, and the
    arguments are unchanged. -/
theorem run_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hq4 : ∀ c, (dats 0 c).q 4 = fullShare) (hq5 : ∀ c, (dats 0 c).q 5 = fullShare)
    (howed : ∀ c t, (dats 0 c).owed t = 0)
    (hA : ∀ c w, (dats 0 c).A w = V m c (Pipeline.arrRef spec0 w))
    (hΦ : ∀ c t, (dats 0 c).Φ t = Pipeline.ΦA spec0 c) :
    θ_run defs (onTc (τ := τ) (main (F := F))) ⟨m, fun _ => 0, ρ⟩ (fun r => ∀ c : Dev nD,
      r.2.mem ((c.tc : Thread nD τ).loc main_v18) = tailV m c ((dats 0 c).arrAt 6 cfg0.N) (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) dats () cellOf_inj 0 winFacts₀0
    (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp))
    (u₀ := initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))
    (hu₀ := by
      iintro Hu; imodintro
      isplitl [Hu]; · iapply (show (ownU _ : sProp 𝕄) ⊢ BI.own (emb₁ (initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => deal_arrays m c (dats 0 c) (hq0 c) (hq1 c) (hq2 c) (hq3 c) (hq4 c) (hq5 c) (hA c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c
      (fun b => tailV m c ((dats 0 c).arrAt 6 cfg0.N) (Proc.devRef .tc b)))
    (hX := fun c => by
      rw [Pipeline.unscopedRestP_none]
      iintro ⟨HU, -, -, -, Hp, -⟩; imodintro
      isplitl [Hp]; · iexists _; iexact Hp
      iexact HU)
    (hin := fun c => by
      rw [hΦ]; unfold Pipeline.ΦA
      iintro ⟨Hp, -, Hr⟩
      isplitl [Hr] <;> iassumption)
    (hout := fun c => by
      rw [hΦ, Pipeline.ownSems0_none]; unfold Pipeline.ΦA
      iintro ⟨Hr, Hp⟩
      isplitl [Hp]; · iexact Hp
      isplitr; · iempintro
      iexact Hr)
    (htail := fun c Q' => tail_run m c (dats 0 c) (hq0 c) (hq1 c) (hq2 c) (hq3 c) (hq4 c) (hq5 c) Q')
    (QY := fun c s => ∀ b ∈ restSet, s.mem ((c.tc : Thread nD τ).loc b) = tailV m c ((dats 0 c).arrAt 6 cfg0.N) (Proc.devRef .tc b))
    (hY := fun c s' => by
      iintro ⟨-, HU, HSI⟩
      unfold Pipeline.unscopedRest
      imodintro
      iapply (pointsTo_read_all restSet (fun b => (c.tc : Thread nD τ).loc b)
        (fun b => tailV m c ((dats 0 c).arrAt 6 cfg0.N) (Proc.devRef .tc b)) s')
      isplitl [HU] <;> iassumption)
    (hQ := fun s h c => ⟨(h c).2.2 main_v18 (by decide),
      ((h c).2.2 main_arg0 (by decide)).trans ((tailV_kept m c _ main_arg0 (by decide) (by decide)).trans (V_main_arg0 m c)),
      ((h c).2.2 main_arg1 (by decide)).trans ((tailV_kept m c _ main_arg1 (by decide) (by decide)).trans (V_main_arg1 m c))⟩)

end Cert.KernelIdeal.Hand

end
-- ==== Proof.KI.RunA.lean ====
/-
  The body's run at a point where the two inner grid coordinates are zero (the reset case): on whole staging
  memrefs, the six inputs' at given contents and the output's at anything, the body runs to a continuation that
  holds the inputs' as they were and the output's buffer with the pieces its two stores wrote (the zero tile,
  then the zero tile read back plus the point's partial sum). The pieces are the witness the run finds.
-/
import proofs.«121745_j76081050681843_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The reset case: the pieces the output's staging memref ends with (last first), with the body's triple. -/
noncomputable def runReset (c : Dev nD) (i : grid0.Coords) (a0 : Memref sig .tc .vmem S1024x256 .bf16) (h0 : a0.IsWhole) (a1 : Memref sig .tc .vmem S1024x256 .bf16) (h1 : a1.IsWhole) (a2 : Memref sig .tc .vmem S1024x1 .f32) (h2 : a2.IsWhole) (a3 : Memref sig .tc .vmem S1x1024 .f32) (h3 : a3.IsWhole) (a4 : Memref sig .tc .vmem S1024x1 .i32) (h4 : a4.IsWhole) (a5 : Memref sig .tc .vmem S1x1024 .i32) (h5 : a5.IsWhole) (a6 : Memref sig .tc .vmem S8x128 .f32) (h6 : a6.IsWhole) (hc : resetCond i)
    (x0 : Vec F S1024x256 .bf16) (x1 : Vec F S1024x256 .bf16) (x2 : Vec F S1024x1 .f32) (x3 : Vec F S1x1024 .f32) (x4 : Vec F S1024x1 .i32) (x5 : Vec F S1x1024 .i32) :
    { L : List (View.Piece (Elt F) S8x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ f, a6.view.loc (c : Thread nD τ) ↦[a6.view.set]{fullShare} a6.view.writes (Elt F) f L)) -∗ K ⟨⟩))
          ⊢ wp frame (wpE (defs₀ (F := F)) Variants.none c none) E (cc0__contrastive_kernel i a0 h0 a1 h1 a2 h2 a3 h3 a4 h4 a5 h5 a6 h6) K } := by
  refine ⟨?_, fun E K => ?run⟩
  case run =>
    simp only [cc0__contrastive_kernel_eq_skeleton]; unfold cc0__contrastive_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := h0.eq_unread hf0; obtain rfl := h1.eq_unread hf1; obtain rfl := h2.eq_unread hf2
    obtain rfl := h3.eq_unread hf3; obtain rfl := h4.eq_unread hf4; obtain rfl := h5.eq_unread hf5
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    iexists _; iexact H6

end Cert.KernelIdeal.Hand

end
-- ==== Proof.KI.RunB.lean ====
/-
  The body's run at a point where one of the two inner grid coordinates is not zero (the accumulating case): on
  whole staging memrefs, the six inputs' at given contents and the output's at its running contents, the body runs
  to a continuation that holds the inputs' as they were and the output's buffer with the piece its one store wrote
  (the running tile plus the point's partial sum). The piece is the witness the run finds.
-/
import proofs.«121745_j76081050681843_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The accumulating case: the pieces the output's staging memref ends with, with the body's triple. -/
noncomputable def runAcc (c : Dev nD) (i : grid0.Coords) (a0 : Memref sig .tc .vmem S1024x256 .bf16) (h0 : a0.IsWhole) (a1 : Memref sig .tc .vmem S1024x256 .bf16) (h1 : a1.IsWhole) (a2 : Memref sig .tc .vmem S1024x1 .f32) (h2 : a2.IsWhole) (a3 : Memref sig .tc .vmem S1x1024 .f32) (h3 : a3.IsWhole) (a4 : Memref sig .tc .vmem S1024x1 .i32) (h4 : a4.IsWhole) (a5 : Memref sig .tc .vmem S1x1024 .i32) (h5 : a5.IsWhole) (a6 : Memref sig .tc .vmem S8x128 .f32) (h6 : a6.IsWhole) (hc : ¬resetCond i)
    (x0 : Vec F S1024x256 .bf16) (x1 : Vec F S1024x256 .bf16) (x2 : Vec F S1024x1 .f32) (x3 : Vec F S1x1024 .f32) (x4 : Vec F S1024x1 .i32) (x5 : Vec F S1x1024 .i32) (xo : Vec F S8x128 .f32) :
    { L : List (View.Piece (Elt F) S8x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare xo
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ f, a6.view.loc (c : Thread nD τ) ↦[a6.view.set]{fullShare} a6.view.writes (Elt F) f L)) -∗ K ⟨⟩))
          ⊢ wp frame (wpE (defs₀ (F := F)) Variants.none c none) E (cc0__contrastive_kernel i a0 h0 a1 h1 a2 h2 a3 h3 a4 h4 a5 h5 a6 h6) K } := by
  refine ⟨?_, fun E K => ?run⟩
  case run =>
    simp only [cc0__contrastive_kernel_eq_skeleton]; unfold cc0__contrastive_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h0.eq_unread hf0; obtain rfl := h1.eq_unread hf1; obtain rfl := h2.eq_unread hf2
    obtain rfl := h3.eq_unread hf3; obtain rfl := h4.eq_unread hf4; obtain rfl := h5.eq_unread hf5
    obtain rfl := h6.eq_unread hf6
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    iexists _; iexact H6

end Cert.KernelIdeal.Hand

end
-- ==== Proof.KI.Data.lean ====
/-
  The proof data of the one pipeline and its body obligation. What the output's staging tile holds after the body
  at each point is defined by recursion on the point: at the first of a core's 32 points the reset case's pieces
  read back, elsewhere the accumulating case's over what the point before left (the tile is not written back
  between: it is flushed only after a core's last point). The six inputs' staging buffers hold their blocks at
  every point, fetched there or not.
-/
import proofs.«121745_j76081050681843_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset case's two stores tile the output's tile, so they cover it. -/
theorem coverReset (c : Dev nD) (i : grid0.Coords) (a0 : Memref sig .tc .vmem S1024x256 .bf16) (h0 : a0.IsWhole) (a1 : Memref sig .tc .vmem S1024x256 .bf16) (h1 : a1.IsWhole) (a2 : Memref sig .tc .vmem S1024x1 .f32) (h2 : a2.IsWhole) (a3 : Memref sig .tc .vmem S1x1024 .f32) (h3 : a3.IsWhole) (a4 : Memref sig .tc .vmem S1024x1 .i32) (h4 : a4.IsWhole) (a5 : Memref sig .tc .vmem S1x1024 .i32) (h5 : a5.IsWhole) (a6 : Memref sig .tc .vmem S8x128 .f32) (h6 : a6.IsWhole) (hc : resetCond i)
    (x0 : Vec F S1024x256 .bf16) (x1 : Vec F S1024x256 .bf16) (x2 : Vec F S1024x1 .f32) (x3 : Vec F S1x1024 .f32) (x4 : Vec F S1024x1 .i32) (x5 : Vec F S1x1024 .i32) (y : S8x128.Idx) :
    ∃ pc ∈ (runReset c i a0 h0 a1 h1 a2 h2 a3 h3 a4 h4 a5 h5 a6 h6 hc x0 x1 x2 x3 x4 x5).1, y ∈ pc.1.set :=
  View.cover_of_tiledL (runReset c i a0 h0 a1 h1 a2 h2 a3 h3 a4 h4 a5 h5 a6 h6 hc x0 x1 x2 x3 x4 x5).1 S8x128.size (by sl_kernel_rfl) y

/-- What the reset case leaves in the output's staging tile: its pieces read back over anything. -/
def outReset (c : Dev nD) (i : grid0.Coords) (a0 : Memref sig .tc .vmem S1024x256 .bf16) (h0 : a0.IsWhole) (a1 : Memref sig .tc .vmem S1024x256 .bf16) (h1 : a1.IsWhole) (a2 : Memref sig .tc .vmem S1024x1 .f32) (h2 : a2.IsWhole) (a3 : Memref sig .tc .vmem S1x1024 .f32) (h3 : a3.IsWhole) (a4 : Memref sig .tc .vmem S1024x1 .i32) (h4 : a4.IsWhole) (a5 : Memref sig .tc .vmem S1x1024 .i32) (h5 : a5.IsWhole) (a6 : Memref sig .tc .vmem S8x128 .f32) (h6 : a6.IsWhole) (hc : resetCond i)
    (x0 : Vec F S1024x256 .bf16) (x1 : Vec F S1024x256 .bf16) (x2 : Vec F S1024x1 .f32) (x3 : Vec F S1x1024 .f32) (x4 : Vec F S1024x1 .i32) (x5 : Vec F S1x1024 .i32) : Vec F S8x128 .f32 :=
  VO.read (Elt F) (VO.writes (Elt F) VO.junk (runReset c i a0 h0 a1 h1 a2 h2 a3 h3 a4 h4 a5 h5 a6 h6 hc x0 x1 x2 x3 x4 x5).1)

/-- The accumulating case's one store covers the output's tile. -/
theorem coverAcc (c : Dev nD) (i : grid0.Coords) (a0 : Memref sig .tc .vmem S1024x256 .bf16) (h0 : a0.IsWhole) (a1 : Memref sig .tc .vmem S1024x256 .bf16) (h1 : a1.IsWhole) (a2 : Memref sig .tc .vmem S1024x1 .f32) (h2 : a2.IsWhole) (a3 : Memref sig .tc .vmem S1x1024 .f32) (h3 : a3.IsWhole) (a4 : Memref sig .tc .vmem S1024x1 .i32) (h4 : a4.IsWhole) (a5 : Memref sig .tc .vmem S1x1024 .i32) (h5 : a5.IsWhole) (a6 : Memref sig .tc .vmem S8x128 .f32) (h6 : a6.IsWhole) (hc : ¬resetCond i)
    (x0 : Vec F S1024x256 .bf16) (x1 : Vec F S1024x256 .bf16) (x2 : Vec F S1024x1 .f32) (x3 : Vec F S1x1024 .f32) (x4 : Vec F S1024x1 .i32) (x5 : Vec F S1x1024 .i32) (xo : Vec F S8x128 .f32) (y : S8x128.Idx) :
    ∃ pc ∈ (runAcc c i a0 h0 a1 h1 a2 h2 a3 h3 a4 h4 a5 h5 a6 h6 hc x0 x1 x2 x3 x4 x5 xo).1, y ∈ pc.1.set :=
  View.cover_of_tiledL (runAcc c i a0 h0 a1 h1 a2 h2 a3 h3 a4 h4 a5 h5 a6 h6 hc x0 x1 x2 x3 x4 x5 xo).1 S8x128.size (by sl_kernel_rfl) y

/-- What the accumulating case leaves in the output's staging tile holding `xo`: its piece read back. -/
def outAcc (c : Dev nD) (i : grid0.Coords) (a0 : Memref sig .tc .vmem S1024x256 .bf16) (h0 : a0.IsWhole) (a1 : Memref sig .tc .vmem S1024x256 .bf16) (h1 : a1.IsWhole) (a2 : Memref sig .tc .vmem S1024x1 .f32) (h2 : a2.IsWhole) (a3 : Memref sig .tc .vmem S1x1024 .f32) (h3 : a3.IsWhole) (a4 : Memref sig .tc .vmem S1024x1 .i32) (h4 : a4.IsWhole) (a5 : Memref sig .tc .vmem S1x1024 .i32) (h5 : a5.IsWhole) (a6 : Memref sig .tc .vmem S8x128 .f32) (h6 : a6.IsWhole) (hc : ¬resetCond i)
    (x0 : Vec F S1024x256 .bf16) (x1 : Vec F S1024x256 .bf16) (x2 : Vec F S1024x1 .f32) (x3 : Vec F S1x1024 .f32) (x4 : Vec F S1024x1 .i32) (x5 : Vec F S1x1024 .i32) (xo : Vec F S8x128 .f32) : Vec F S8x128 .f32 :=
  VO.read (Elt F) (VO.writes (Elt F) VO.junk (runAcc c i a0 h0 a1 h1 a2 h2 a3 h3 a4 h4 a5 h5 a6 h6 hc x0 x1 x2 x3 x4 x5 xo).1)

/-! ## What the output's staging tile holds after each point -/

/-- After the body at position `n`: the reset case at the first of each core's 32 points, the accumulating case
    elsewhere, over what this leaves at `n - 1`. -/
def outsAt (c : Dev nD) : (n : ℕ) → n < cfg0.N → Vec F S8x128 .f32
  | 0, hn => outReset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((resetCond_iff ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h : (n + 1) % 32 = 0 then
      outReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((resetCond_iff ⟨n + 1, hn⟩).mpr h) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      outAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h' => h ((resetCond_iff ⟨n + 1, hn⟩).mp h')) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn))

/-- At a reset point: the reset case's contents. -/
theorem outsAt_reset (c : Dev nD) (t : Fin cfg0.N) (h : t.val % 32 = 0) :
    outsAt m c t.val t.isLt = outReset c (grid0.coords t) (ms0 t) (hs0 t) (ms1 t) (hs1 t) (ms2 t) (hs2 t) (ms3 t) (hs3 t) (ms4 t) (hs4 t) (ms5 t) (hs5 t) (ms6 t) (hs6 t) ((resetCond_iff t).mpr h) (iblk m c 0 t) (iblk m c 1 t) (iblk m c 2 t) (iblk m c 3 t) (iblk m c 4 t) (iblk m c 5 t) := by
  obtain ⟨n, hn⟩ := t
  cases n with
  | zero => exact rfl
  | succ n => exact (dif_pos h).trans rfl

/-- At an accumulating point: the accumulating case's contents, over what the point before left. -/
theorem outsAt_acc (c : Dev nD) (t : Fin cfg0.N) (h : ¬t.val % 32 = 0) :
    outsAt m c t.val t.isLt = outAcc c (grid0.coords t) (ms0 t) (hs0 t) (ms1 t) (hs1 t) (ms2 t) (hs2 t) (ms3 t) (hs3 t) (ms4 t) (hs4 t) (ms5 t) (hs5 t) (ms6 t) (hs6 t) (fun h' => h ((resetCond_iff t).mp h')) (iblk m c 0 t) (iblk m c 1 t) (iblk m c 2 t) (iblk m c 3 t) (iblk m c 4 t) (iblk m c 5 t) (outsAt m c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (dif_neg h).trans rfl

/-! ## The pipeline's proof data -/

/-- The proof data of the one pipeline on core `c`: the arrays as the region finds them; after the body at point
    `t` each input's buffer at its block and the output's at `outsAt`; nothing owed. The two windows that read the
    same array hold a half share of it each, the others full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outsAt m c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

/-- The proof data's arrays are the region-entry contents (the definition projected, `V` never unfolded). -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outsAt m c t.val t.isLt := by dsimp only [dats]

/-- Each input's current staging buffer holds its block at every point, fetched there or not: unfetched, the block
    index has not moved; the windows are uncut and never idle. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)

/-- At an accumulating point the output's current staging tile holds what the body left at the point before: the
    point is not the first, and the tile was not written back between (it is flushed only at the points ≡ 31
    modulo 32, and the point before an accumulating point is not one of those). -/
theorem before6_acc (c : Dev nD) (t : Fin cfg0.N) (h : ¬t.val % 32 = 0) (d) :
    (dats m 0 c).before 6 t d = outsAt m c (t.val - 1) (Nat.lt_of_le_of_lt (Nat.sub_le _ _) t.isLt) := by
  have hN : t.val < 64 := lt_of_lt_of_eq t.isLt (show cfg0.N = 64 from N_0)
  rw [Dat.before_out_kept _ 6 rfl t (by omega) (Bool.eq_false_iff.mpr fun h' => by have := (flush0_6 _).mp h'; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
/-- The body at any point: the inputs' memrefs hold their blocks; the point is a reset point or an accumulating
    one, where the output's tile holds what the point before left; so the case's run applies; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  have hN : t.val < 64 := lt_of_lt_of_eq t.isLt (show cfg0.N = 64 from N_0)
  by_cases h : t.val % 32 = 0
  · rw [outsAt_reset m c t h]
    unfold outReset
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runReset c (grid0.coords t) _ _ _ _ _ _ _ _ _ _ _ _ _ _ ((resetCond_iff t).mpr h) (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverReset c _ _ _ _ _ _ _ _ _ _ _ _ _ _ _ _ _ _ _ _ _ _)
  · rw [outsAt_acc m c t h]
    simp only [before6_acc m c t h]
    unfold outAcc
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runAcc c (grid0.coords t) _ _ _ _ _ _ _ _ _ _ _ _ _ _ (fun h' => h ((resetCond_iff t).mp h')) (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverAcc c _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Run.lean ====
/-
  The run of the whole program at its proof data, and the frame: the arguments end unchanged.
-/
import proofs.«121745_j76081050681843_2_alg».proof.Proof.KI.Launch
import proofs.«121745_j76081050681843_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates; the result buffer holds what the four host operations after the
    region compute from the output array's final contents, and the two arguments are unchanged. -/
theorem run_main : θ_run defs (onTc (τ := τ) (main (F := F))) ⟨m, fun _ => 0, ρ⟩ (fun r => ∀ c : Dev nD,
      r.2.mem ((c.tc : Thread nD τ).loc main_v18) = tailV m c ((dats m 0 c).arrAt 6 cfg0.N) (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of m ρ (dats m) (fun c => (body_obligation m c).loose) (fun _ => rfl) (fun _ => rfl) (fun _ => rfl) (fun _ => rfl)
    (fun _ => rfl) (fun _ => rfl) (fun _ _ => rfl) (A_eq m) (fun _ _ => rfl)

/-- The frame: the program runs to its end and leaves its arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.KI.Value1.lean ====
/-
  What each case of the body leaves in the output's staging tile, as a value: the store's payload over the
  loaded blocks. At an accumulating point the tile holding `xo` ends at `xo` plus the point's partial sum placed
  at cell (0, 0); at a reset point the zero tile is stored first and read back, so the tile ends at the zero tile
  plus the partial sum.
-/
import proofs.«121745_j76081050681843_2_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- The accumulating case: its one covering store's payload, every load reading a whole buffer. -/
theorem outAcc_eq (c : Dev nD) (i : grid0.Coords) (a0 : Memref sig .tc .vmem S1024x256 .bf16) (h0 : a0.IsWhole) (a1 : Memref sig .tc .vmem S1024x256 .bf16) (h1 : a1.IsWhole) (a2 : Memref sig .tc .vmem S1024x1 .f32) (h2 : a2.IsWhole) (a3 : Memref sig .tc .vmem S1x1024 .f32) (h3 : a3.IsWhole) (a4 : Memref sig .tc .vmem S1024x1 .i32) (h4 : a4.IsWhole) (a5 : Memref sig .tc .vmem S1x1024 .i32) (h5 : a5.IsWhole) (a6 : Memref sig .tc .vmem S8x128 .f32) (h6 : a6.IsWhole) (hc : ¬resetCond i)
    (x0 : Vec F S1024x256 .bf16) (x1 : Vec F S1024x256 .bf16) (x2 : Vec F S1024x1 .f32) (x3 : Vec F S1x1024 .f32) (x4 : Vec F S1024x1 .i32) (x5 : Vec F S1x1024 .i32) (xo : Vec F S8x128 .f32) :
    outAcc c i a0 h0 a1 h1 a2 h2 a3 h3 a4 h4 a5 h5 a6 h6 hc x0 x1 x2 x3 x4 x5 xo = k0_pay1 (k0_pay3 x0 x1 x2 x3 x4 x5) xo := by
  unfold outAcc
  rw [View.read_writes_eq_canon _ _ _ (coverAcc c i a0 h0 a1 h1 a2 h2 a3 h3 a4 h4 a5 h5 a6 h6 hc x0 x1 x2 x3 x4 x5 xo)]
  unfold runAcc
  dsimp only
  rw [View.canon_unit_zero hz]
  simp only [View.readAt_eq_ld, h0.read_unread, h1.read_unread, h2.read_unread, h3.read_unread, h4.read_unread, h5.read_unread, h6.read_unread,
    View.ld_unit_zero (S := S1024x256) hz, View.ld_unit_zero (S := S1024x1) hz, View.ld_unit_zero (S := S1x1024) hz, View.ld_unit_zero (S := S8x128) hz]

/-- The reset case: the last store's payload over the zero tile the first store wrote and the load read back. -/
theorem outReset_eq (c : Dev nD) (i : grid0.Coords) (a0 : Memref sig .tc .vmem S1024x256 .bf16) (h0 : a0.IsWhole) (a1 : Memref sig .tc .vmem S1024x256 .bf16) (h1 : a1.IsWhole) (a2 : Memref sig .tc .vmem S1024x1 .f32) (h2 : a2.IsWhole) (a3 : Memref sig .tc .vmem S1x1024 .f32) (h3 : a3.IsWhole) (a4 : Memref sig .tc .vmem S1024x1 .i32) (h4 : a4.IsWhole) (a5 : Memref sig .tc .vmem S1x1024 .i32) (h5 : a5.IsWhole) (a6 : Memref sig .tc .vmem S8x128 .f32) (h6 : a6.IsWhole) (hc : resetCond i)
    (x0 : Vec F S1024x256 .bf16) (x1 : Vec F S1024x256 .bf16) (x2 : Vec F S1024x1 .f32) (x3 : Vec F S1x1024 .f32) (x4 : Vec F S1024x1 .i32) (x5 : Vec F S1x1024 .i32) :
    outReset c i a0 h0 a1 h1 a2 h2 a3 h3 a4 h4 a5 h5 a6 h6 hc x0 x1 x2 x3 x4 x5 = k0_pay1 (k0_pay3 x0 x1 x2 x3 x4 x5) k0_pay2 := by
  unfold outReset
  rw [View.read_writes_eq_canon _ _ _ (coverReset c i a0 h0 a1 h1 a2 h2 a3 h3 a4 h4 a5 h5 a6 h6 hc x0 x1 x2 x3 x4 x5)]
  unfold runReset
  dsimp only
  sl_unfold_words
  rw [View.canon_cons_unit_zero (S := S8x128) hz, View.readCov_unit_zero (S := S8x128) _ hz]
  simp only [View.readAt_eq_ld, h0.read_unread, h1.read_unread, h2.read_unread, h3.read_unread, h4.read_unread, h5.read_unread, h6.read_unread,
    View.ld_unit_zero (S := S1024x256) hz, View.ld_unit_zero (S := S1024x1) hz, View.ld_unit_zero (S := S1x1024) hz, View.ld_unit_zero (S := S8x128) hz]

/-- The 1024×1024 loss block of the six input blocks at point `t`. -/
def lossBlk (c : Dev nD) (t : Fin cfg0.N) : FVec F S1024x1024 .f32 :=
  k0_pay3 (iblk m c 0 t) (iblk m c 1 t) (iblk m c 2 t) (iblk m c 3 t) (iblk m c 4 t) (iblk m c 5 t)

/-- The output's staging tile after a reset point: the zero tile plus the point's partial sum. -/
theorem outsAt_reset_eq (c : Dev nD) (t : Fin cfg0.N) (h : t.val % 32 = 0) :
    outsAt m c t.val t.isLt = k0_pay1 (lossBlk m c t) k0_pay2 :=
  (outsAt_reset m c t h).trans (outReset_eq c (grid0.coords t) (ms0 t) (hs0 t) (ms1 t) (hs1 t) (ms2 t) (hs2 t) (ms3 t) (hs3 t)
    (ms4 t) (hs4 t) (ms5 t) (hs5 t) (ms6 t) (hs6 t) ((resetCond_iff t).mpr h)
    (iblk m c 0 t) (iblk m c 1 t) (iblk m c 2 t) (iblk m c 3 t) (iblk m c 4 t) (iblk m c 5 t))

/-- The output's staging tile after an accumulating point: what the point before left plus the point's partial sum. -/
theorem outsAt_acc_eq (c : Dev nD) (t : Fin cfg0.N) (h : ¬t.val % 32 = 0) :
    outsAt m c t.val t.isLt
      = k0_pay1 (lossBlk m c t) (outsAt m c (t.val - 1) (Nat.lt_of_le_of_lt (Nat.sub_le _ _) t.isLt)) :=
  (outsAt_acc m c t h).trans (outAcc_eq c (grid0.coords t) (ms0 t) (hs0 t) (ms1 t) (hs1 t) (ms2 t) (hs2 t) (ms3 t) (hs3 t)
    (ms4 t) (hs4 t) (ms5 t) (hs5 t) (ms6 t) (hs6 t) (fun h' => h ((resetCond_iff t).mp h'))
    (iblk m c 0 t) (iblk m c 1 t) (iblk m c 2 t) (iblk m c 3 t) (iblk m c 4 t) (iblk m c 5 t)
    (outsAt m c (t.val - 1) (Nat.lt_of_le_of_lt (Nat.sub_le _ _) t.isLt)))

end Cert.KernelIdeal.Hand

end
-- ==== Proof.KI.Value2.lean ====
/-
  The output's staging tile at the exact values, in closed form. Over the extended reals the tile's store payload
  adds to the loaded tile, at cell (0, 0) only, the sum of the point's 1024×1024 loss block (rows first, each row's
  entries summed, then the row sums); the reset tile is zero. So after the body at position n the tile holds, at
  cell (0, 0), the sum of the block sums of the points since the last reset (n − n mod 32 … n), and zero elsewhere:
  by induction on the point.
-/
import proofs.«121745_j76081050681843_2_alg».proof.Proof.KI.Value1
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The sum of a 1024×1024 block's entries, rows first. -/
def tileSum (v : FVec Ideal S1024x1024 .f32) : EReal := ∑ k : Fin 1024, ∑ q : Fin 1024, v (ix2 k q)

/-- The store's mask at cell (r, l): both coordinates' words are the zero word exactly at (0, 0). -/
theorem cond00 : ∀ (r : Fin 8) (l : Fin 128), IntOp.andi (IntOp.cmpi .eq (BitVec.ofNat 32 r.val) 0#32) (IntOp.cmpi .eq (BitVec.ofNat 32 l.val) 0#32) = if r.val = 0 ∧ l.val = 0 then 1#1 else 0#1 := by decide +kernel

/-- The point's partial sum as the payload computes it — the rows' sums, summed, viewed 1×1 and broadcast to the
    tile — is the block's sum at every cell. -/
theorem psum_apply (v34 : FVec Ideal S1024x1024 .f32) (r : Fin 8) (l : Fin 128)
    (h1 : S1024x1024.Reduces [1] S1024) (h2 : S1024.ShapeCasts S1024x1) (h3 : S1024x1.Reduces [0] S1)
    (h4 : S1.ShapeCasts S1x1) (h5 : S1x1.ShapeCasts S1x1) (h6 : S1x1.Broadcasts S8x128)
    (p2 : FKind.Formats .f32) (p3 : (0x00000000#32 : BitVec 32) = FKind.add.neutral .f32 p2) :
    broadcastTo S8x128 (shapeCast S1x1 (shapeCast S1x1 (multiReduction .add [0] S1
      (shapeCast S1024x1 (multiReduction .add [1] S1024 v34 0x00000000#32 h1 p2 p3) h2) 0x00000000#32 h3 p2 p3) h4) h5) h6 (ix2 r l)
      = tileSum v34 := by
  rw [broadcastTo_apply _ _ _ (ix2 0 0) (fun a => by fin_cases a <;> rfl)]
  rw [shapeCast_self]
  rw [shapeCast_apply _ _ _ (ix1 0) (by rfl)]
  rw [Ideal.multiReduction_add_single]
  unfold tileSum
  refine Finset.sum_congr rfl fun (k : Fin 1024) _ => ?_
  refine (shapeCast_apply _ _ _ (ix1 k) (by rw [Shape.rowMajor_val_one, Shape.rowMajor_val_two]; show k.val = k.val * 1 + 0; omega)).trans ?_
  rw [Ideal.multiReduction_add_single]
  refine Finset.sum_congr rfl fun (q : Fin 1024) _ => congrArg v34 ?_
  funext a; fin_cases a <;> rfl

/-- A select on a decided mask word. -/
theorem sel_eq {w : BitVec 1} {A B S : EReal} {P : Prop} [Decidable P] (hw : w = if P then 1#1 else 0#1) (hA : A = S) (hB : B = 0) :
    Scalar.select w A B = if P then S else 0 := by
  subst hw hA hB
  by_cases h : P
  · rw [if_pos h, if_pos h, select_one]
  · rw [if_neg h, if_neg h, select_zero]

/-- The accumulating store's payload at a cell: the loaded tile there, plus the block's sum at cell (0, 0). -/
theorem pay1_apply (v34 : FVec Ideal S1024x1024 .f32) (v50 : Vec Ideal S8x128 .f32) (r : Fin 8) (l : Fin 128) :
    k0_pay1 (F := Ideal) v34 v50 (ix2 r l) = v50 (ix2 r l) + (if r.val = 0 ∧ l.val = 0 then tileSum v34 else 0) := by
  unfold k0_pay1
  dsimp only
  refine (addf_apply _ _ _).trans ?_
  have hc : (andi (cmpi .eq (iota .tc S8x128 32 [0] iota_S8x128_d0_w32) (broadcast S8x128 0#32)) (cmpi .eq (iota .tc S8x128 32 [1] iota_S8x128_d1_w32) (broadcast S8x128 0#32))) (ix2 r l) = if r.val = 0 ∧ l.val = 0 then 1#1 else 0#1 := by
    show IntOp.andi (IntOp.cmpi .eq (iota .tc S8x128 32 [0] _ (ix2 r l)) 0#32) (IntOp.cmpi .eq (iota .tc S8x128 32 [1] _ (ix2 r l)) 0#32) = _
    rw [iota_single_apply, iota_single_apply]
    exact cond00 r l
  exact congrArg₂ (· + ·) (congrFun (shapeCast_self v50 _) _) (sel_eq hc (psum_apply v34 r l _ _ _ _ _ _ _ _) Ideal.ofBits_zero_f32)

/-- The reset store's payload is the zero tile. -/
theorem pay2_apply (r : Fin 8) (l : Fin 128) : k0_pay2 (F := Ideal) (ix2 r l) = 0 := by
  unfold k0_pay2
  exact Ideal.ofBits_zero_f32

variable (mI : (ℓ : Loc nD τ sig) → Buf (Elt Ideal) ℓ)

/-- The sum of the loss block at position `k` of the grid (zero past the grid). -/
def psum (c : Dev nD) (k : ℕ) : EReal := if h : k < cfg0.N then tileSum (lossBlk (F := Ideal) mI c ⟨k, h⟩) else 0

/-- After a reset point the tile holds the point's block sum at cell (0, 0) and zero elsewhere. -/
theorem outsAt_reset_apply (c : Dev nD) (t : Fin cfg0.N) (h : t.val % 32 = 0) (r : Fin 8) (l : Fin 128) :
    outsAt (F := Ideal) mI c t.val t.isLt (ix2 r l) = if r.val = 0 ∧ l.val = 0 then tileSum (lossBlk (F := Ideal) mI c t) else 0 := by
  refine (congrFun (outsAt_reset_eq mI c t h) (ix2 r l)).trans ((pay1_apply _ _ r l).trans ?_)
  rw [pay2_apply, zero_add]

/-- THE INVARIANT: after the body at position `n` the tile holds, at cell (0, 0), the sum of the block sums of the
    positions since the last reset, and zero elsewhere. -/
theorem outsAt_apply (c : Dev nD) : ∀ (n : ℕ) (hn : n < cfg0.N) (r : Fin 8) (l : Fin 128),
    outsAt (F := Ideal) mI c n hn (ix2 r l)
      = if r.val = 0 ∧ l.val = 0 then ∑ k ∈ Finset.range (n % 32 + 1), psum mI c (n - n % 32 + k) else 0 := by
  intro n
  induction n with
  | zero =>
    intro hn r l
    refine (outsAt_reset_apply mI c ⟨0, hn⟩ rfl r l).trans ?_
    rw [show (0 : ℕ) % 32 + 1 = 1 from rfl, Finset.sum_range_one]
    unfold psum
    rw [dif_pos (show 0 - 0 % 32 + 0 < cfg0.N from hn)]
  | succ n ih =>
    intro hn r l
    by_cases h : (n + 1) % 32 = 0
    · refine (outsAt_reset_apply mI c ⟨n + 1, hn⟩ h r l).trans ?_
      rw [h, Finset.sum_range_one]
      unfold psum
      rw [dif_pos (show n + 1 - 0 + 0 < cfg0.N from hn)]
      rfl
    · refine (congrFun (outsAt_acc_eq mI c ⟨n + 1, hn⟩ h) (ix2 r l)).trans ((pay1_apply _ _ r l).trans ?_)
      show outsAt (F := Ideal) mI c n _ (ix2 r l) + _ = _
      rw [ih (Nat.lt_of_succ_lt hn) r l]
      by_cases hrl : r.val = 0 ∧ l.val = 0
      · rw [if_pos hrl, if_pos hrl, if_pos hrl]
        have h1 : (n + 1) % 32 = n % 32 + 1 := by omega
        have h2 : n + 1 - (n % 32 + 1) = n - n % 32 := by omega
        have h3 : n - n % 32 + (n % 32 + 1) = n + 1 := by omega
        rw [h1, h2, Finset.sum_range_succ (fun k => psum mI c (n - n % 32 + k)) (n % 32 + 1), h3]
        refine congrArg (_ + ·) ?_
        unfold psum
        rw [dif_pos hn]
      · rw [if_neg hrl, if_neg hrl, if_neg hrl, add_zero]

end Cert.KernelIdeal.Hand

end
-- ==== Proof.KI.Value3.lean ====
/-
  What the result array ends holding. The output's tile is written back after each core coordinate's last point
  (positions 31 and 63), into rows 8c' … 8c'+7 of the 16×128 array for the first grid coordinate c'; the two blocks
  cover the array. So the array ends with, at (8c', 0), the sum of the block sums of the 32 positions of c', and zero
  everywhere else.
-/
import proofs.«121745_j76081050681843_2_alg».proof.Proof.KI.Value2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

variable (mI : (ℓ : Loc nD τ sig) → Buf (Elt Ideal) ℓ)

/-- The result array's final contents. -/
def final (c : Dev nD) : Vec Ideal S16x128 .f32 := fun i =>
  ((if (i 0).val % 8 = 0 ∧ (i 1).val = 0 then ∑ k ∈ Finset.range 32, psum mI c (32 * ((i 0).val / 8) + k) else 0 : EReal))

/-- The output window's block index at position `t`: the first grid coordinate, and column block 0. -/
theorem index6 : ∀ t : Fin cfg0.N, win0_6.index t 0 = t.val / 32 ∧ win0_6.index t 1 = 0 :=
  (by decide +kernel : ∀ t : Fin grid0.N, win0_6.index t 0 = t.val / 32 ∧ win0_6.index t 1 = 0)

/-- What a flushing point writes back is its block of `final`. -/
theorem flushed_eq (c : Dev nD) (t : Fin cfg0.N) (hf : (cfg0.win 6).flush t = true) :
    (dats mI 0 c).flushed 6 t = ((cfg0.win 6).blk t).view.read (Elt Ideal) (final mI c) := by
  have hN : t.val < 64 := lt_of_lt_of_eq t.isLt (show cfg0.N = 64 from N_0)
  have h31 : t.val % 32 = 31 := (flush0_6 t).mp hf
  show (cfg0.win 6).cut (grid0.coords t) ((dats mI 0 c).after 6 t) = _
  rw [after6]
  funext j
  have hj : j = ix2 (n0 := 8) (n1 := 128) (j 0) (j 1) := eq_ix2 (n0 := 8) (n1 := 128) j
  have hr : (j 0).val < 8 := (j 0).isLt
  have hl : (j 1).val < 128 := (j 1).isLt
  rw [View.read_apply]
  show outsAt (F := Ideal) mI c t.val t.isLt j = final mI c _
  rw [hj, outsAt_apply mI c t.val t.isLt (j 0) (j 1)]
  unfold final
  have e0 : (((cfg0.win 6).blk t).view.emb (ix2 (n0 := 8) (n1 := 128) (j 0) (j 1)) 0).val = t.val / 32 * 8 + (j 0).val := by
    show win0_6.index t 0 * 8 + 1 * (j 0).val = _
    rw [(index6 t).1]; omega
  have e1 : (((cfg0.win 6).blk t).view.emb (ix2 (n0 := 8) (n1 := 128) (j 0) (j 1)) 1).val = (j 1).val := by
    show win0_6.index t 1 * 128 + 1 * (j 1).val = _
    rw [(index6 t).2]; omega
  rw [e0, e1]
  by_cases hrl : (j 0).val = 0 ∧ (j 1).val = 0
  · rw [if_pos hrl, if_pos ⟨by omega, hrl.2⟩]
    have a1 : t.val % 32 + 1 = 32 := by omega
    have a2 : t.val - t.val % 32 = 32 * ((t.val / 32 * 8 + (j 0).val) / 8) := by omega
    rw [a1, a2]
  · rw [if_neg hrl, if_neg (fun h => hrl ⟨by omega, h.2⟩)]

/-- Every index of the result array lies in the block one of the two flushing points writes. -/
theorem cover6 (i : S16x128.Idx) :
    ∃ t : Fin cfg0.N, (cfg0.win 6).flush t = true ∧ i ∈ ((cfg0.win 6).blk t).view.set := by
  have h0 : (i 0 : Nat) < 16 := (i 0).isLt
  have h1 : (i 1 : Nat) < 128 := (i 1).isLt
  have hN : cfg0.N = 64 := N_0
  have key : ∀ t : Fin cfg0.N, t.val % 32 = 31 → t.val / 32 * 8 ≤ (i 0).val → (i 0).val < t.val / 32 * 8 + 8 →
      (cfg0.win 6).flush t = true ∧ i ∈ ((cfg0.win 6).blk t).view.set := by
    intro t ht hlo hhi
    refine ⟨(flush0_6 t).mpr ht, ?_⟩
    show i ∈ ((View.whole main_v16).slice (win0_6.rect t)).set
    rw [View.set_slice_whole, Rect.mem_set_unit]
    intro a
    match a with
    | ⟨0, _⟩ =>
      show win0_6.index t 0 * 8 ≤ (i 0 : Nat) ∧ (i 0 : Nat) < win0_6.index t 0 * 8 + 8
      rw [(index6 t).1]; exact ⟨hlo, hhi⟩
    | ⟨1, _⟩ =>
      show win0_6.index t 1 * 128 ≤ (i 1 : Nat) ∧ (i 1 : Nat) < win0_6.index t 1 * 128 + 128
      rw [(index6 t).2]; omega
  by_cases h : (i 0).val < 8
  · exact ⟨⟨31, by omega⟩, key ⟨31, by omega⟩ (by show 31 % 32 = 31; rfl) (by show 31 / 32 * 8 ≤ _; omega) (by show _ < 31 / 32 * 8 + 8; omega)⟩
  · exact ⟨⟨63, by omega⟩, key ⟨63, by omega⟩ (by show 63 % 32 = 31; rfl) (by show 63 / 32 * 8 ≤ _; omega) (by show _ < 63 / 32 * 8 + 8; omega)⟩

/-- So the result array ends holding `final`. -/
theorem final_eq (c : Dev nD) : (dats mI 0 c).arrAt 6 cfg0.N = final mI c :=
  (dats mI 0 c).arrAt_eq_of_cover 6 (final mI c) (flushed_eq mI c) (cover6)

end Cert.KernelIdeal.Hand

end
-- ==== Proof.KI.Value4.lean ====
/-
  Each input window's block at a grid point, read at an element: the region-entry array at the block's offset plus
  the element's coordinates. Position t of the grid is (c', ii, j) with t = 32 c' + 8 ii + j; the windows of the row
  operands read row block 4 c' + ii = t / 8, those of the column operands read block j = t mod 8 (of rows of the
  shared array for the second matmul operand, of columns for the column statistic and the column labels).
-/
import proofs.«121745_j76081050681843_2_alg».proof.Proof.KI.Value1
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The block indices of the six input windows at position `t`, decided over the grid. -/
theorem index0 : ∀ t : Fin cfg0.N, win0_0.index t 0 = t.val / 8 ∧ win0_0.index t 1 = 0 :=
  (by decide +kernel : ∀ t : Fin grid0.N, win0_0.index t 0 = t.val / 8 ∧ win0_0.index t 1 = 0)
theorem index1 : ∀ t : Fin cfg0.N, win0_1.index t 0 = t.val % 8 ∧ win0_1.index t 1 = 0 :=
  (by decide +kernel : ∀ t : Fin grid0.N, win0_1.index t 0 = t.val % 8 ∧ win0_1.index t 1 = 0)
theorem index2 : ∀ t : Fin cfg0.N, win0_2.index t 0 = t.val / 8 ∧ win0_2.index t 1 = 0 :=
  (by decide +kernel : ∀ t : Fin grid0.N, win0_2.index t 0 = t.val / 8 ∧ win0_2.index t 1 = 0)
theorem index3 : ∀ t : Fin cfg0.N, win0_3.index t 0 = 0 ∧ win0_3.index t 1 = t.val % 8 :=
  (by decide +kernel : ∀ t : Fin grid0.N, win0_3.index t 0 = 0 ∧ win0_3.index t 1 = t.val % 8)
theorem index4 : ∀ t : Fin cfg0.N, win0_4.index t 0 = t.val / 8 ∧ win0_4.index t 1 = 0 :=
  (by decide +kernel : ∀ t : Fin grid0.N, win0_4.index t 0 = t.val / 8 ∧ win0_4.index t 1 = 0)
theorem index5 : ∀ t : Fin cfg0.N, win0_5.index t 0 = 0 ∧ win0_5.index t 1 = t.val % 8 :=
  (by decide +kernel : ∀ t : Fin grid0.N, win0_5.index t 0 = 0 ∧ win0_5.index t 1 = t.val % 8)

theorem rowIx_lt (t : Fin cfg0.N) (r : Fin 1024) : 1024 * (t.val / 8) + r.val < 8192 := by
  have hN : t.val < 64 := lt_of_lt_of_eq t.isLt (show cfg0.N = 64 from N_0)
  have := r.isLt; omega
theorem colIx_lt (t : Fin cfg0.N) (q : Fin 1024) : 1024 * (t.val % 8) + q.val < 8192 := by
  have := q.isLt; omega

/-- Window 0 (the first matmul operand): rows of row block t / 8. -/
theorem iblk0_apply (c : Dev nD) (t : Fin cfg0.N) (r : Fin 1024) (k : Fin 256) :
    iblk m c 0 t (ix2 r k) = V m c main_v0 (ix2 ⟨1024 * (t.val / 8) + r.val, rowIx_lt t r⟩ k) := by
  have hi := index0 t
  unfold iblk
  rw [View.read_apply]
  show V m c main_v0 _ = V m c main_v0 _
  congr 1
  funext a
  apply Fin.ext
  match a with
  | ⟨0, _⟩ => show win0_0.index t 0 * 1024 + 1 * r.val = 1024 * (t.val / 8) + r.val; rw [hi.1]; omega
  | ⟨1, _⟩ => show win0_0.index t 1 * 256 + 1 * k.val = k.val; rw [hi.2]; omega

/-- Window 1 (the second matmul operand, rows of the same array): rows of row block t mod 8. -/
theorem iblk1_apply (c : Dev nD) (t : Fin cfg0.N) (q : Fin 1024) (k : Fin 256) :
    iblk m c 1 t (ix2 q k) = V m c main_v0 (ix2 ⟨1024 * (t.val % 8) + q.val, colIx_lt t q⟩ k) := by
  have hi := index1 t
  unfold iblk
  rw [View.read_apply]
  show V m c main_v0 _ = V m c main_v0 _
  congr 1
  funext a
  apply Fin.ext
  match a with
  | ⟨0, _⟩ => show win0_1.index t 0 * 1024 + 1 * q.val = 1024 * (t.val % 8) + q.val; rw [hi.1]; omega
  | ⟨1, _⟩ => show win0_1.index t 1 * 256 + 1 * k.val = k.val; rw [hi.2]; omega

/-- Window 2 (the row statistic, a column): entries of row block t / 8. -/
theorem iblk2_apply (c : Dev nD) (t : Fin cfg0.N) (r : Fin 1024) :
    iblk m c 2 t (ix2 r (0 : Fin 1)) = V m c main_v7 (ix2 ⟨1024 * (t.val / 8) + r.val, rowIx_lt t r⟩ (0 : Fin 1)) := by
  have hi := index2 t
  unfold iblk
  rw [View.read_apply]
  show V m c main_v7 _ = V m c main_v7 _
  congr 1
  funext a
  apply Fin.ext
  match a with
  | ⟨0, _⟩ => show win0_2.index t 0 * 1024 + 1 * r.val = 1024 * (t.val / 8) + r.val; rw [hi.1]; omega
  | ⟨1, _⟩ => show win0_2.index t 1 * 1 + 1 * 0 = 0; rw [hi.2]

/-- Window 3 (the column statistic, a row): entries of column block t mod 8. -/
theorem iblk3_apply (c : Dev nD) (t : Fin cfg0.N) (q : Fin 1024) :
    iblk m c 3 t (ix2 (0 : Fin 1) q) = V m c main_v13 (ix2 (0 : Fin 1) ⟨1024 * (t.val % 8) + q.val, colIx_lt t q⟩) := by
  have hi := index3 t
  unfold iblk
  rw [View.read_apply]
  show V m c main_v13 _ = V m c main_v13 _
  congr 1
  funext a
  apply Fin.ext
  match a with
  | ⟨0, _⟩ => show win0_3.index t 0 * 1 + 1 * 0 = 0; rw [hi.1]
  | ⟨1, _⟩ => show win0_3.index t 1 * 1024 + 1 * q.val = 1024 * (t.val % 8) + q.val; rw [hi.2]; omega

/-- Window 4 (the row labels, a column): entries of row block t / 8. -/
theorem iblk4_apply (c : Dev nD) (t : Fin cfg0.N) (r : Fin 1024) :
    iblk m c 4 t (ix2 r (0 : Fin 1)) = V m c main_v14 (ix2 ⟨1024 * (t.val / 8) + r.val, rowIx_lt t r⟩ (0 : Fin 1)) := by
  have hi := index4 t
  unfold iblk
  rw [View.read_apply]
  show V m c main_v14 _ = V m c main_v14 _
  congr 1
  funext a
  apply Fin.ext
  match a with
  | ⟨0, _⟩ => show win0_4.index t 0 * 1024 + 1 * r.val = 1024 * (t.val / 8) + r.val; rw [hi.1]; omega
  | ⟨1, _⟩ => show win0_4.index t 1 * 1 + 1 * 0 = 0; rw [hi.2]

/-- Window 5 (the column labels, a row): entries of column block t mod 8. -/
theorem iblk5_apply (c : Dev nD) (t : Fin cfg0.N) (q : Fin 1024) :
    iblk m c 5 t (ix2 (0 : Fin 1) q) = V m c main_v15 (ix2 (0 : Fin 1) ⟨1024 * (t.val % 8) + q.val, colIx_lt t q⟩) := by
  have hi := index5 t
  unfold iblk
  rw [View.read_apply]
  show V m c main_v15 _ = V m c main_v15 _
  congr 1
  funext a
  apply Fin.ext
  match a with
  | ⟨0, _⟩ => show win0_5.index t 0 * 1 + 1 * 0 = 0; rw [hi.1]
  | ⟨1, _⟩ => show win0_5.index t 1 * 1024 + 1 * q.val = 1024 * (t.val % 8) + q.val; rw [hi.2]; omega

end Cert.KernelIdeal.Hand

end
-- ==== Proof.Spec.lean ====
/-
  The contrastive loss as one function of the argument arrays, on the extended reals.

  For rows x_i (i < 8192, 256 entries each) and integer labels t_i:
    sqn i   = Σ_k x_ik²          rsum i = Σ_k x_ik          gram i j = Σ_k x_ik · x_jk
    aRow i  = sqn i + c₁ · rsum i
    bCol j  = sqn j − c₁ · rsum j + c₂
    dist i j = max (aRow i + bCol j − 2 · gram i j) 0
    loss i j = dist i j                      when t_i = t_j
             = max (1/2 − dist i j) 0        otherwise
    total    = (Σ_i Σ_j loss i j) / 8192
  with c₁, c₂, 2, 1/2, 8192 and 0 the extended reals their f32 words denote (each sum starts
  from the zero word, as the programs' sums do).  This is the order in which the kernel's
  program combines its terms; the reference adds the same terms in another order and does
  not clamp the distance at zero.
-/
import Idealize.ShloMosaic.PureOps.Ideal
import Idealize.ShloMosaic.Lib.ValueIdx

noncomputable section

namespace Cert.Spec

open Idealize.ShloMosaic

/-- A 32-bit word read as the extended real its f32 pattern denotes. -/
abbrev lit (w : BitVec 32) : EReal := Ideal.ofBits .f32 w

variable (x : Fin 8192 → Fin 256 → EReal) (t : Fin 8192 → BitVec 32)

/-- The squared norm of row `i`. -/
def sqn (i : Fin 8192) : EReal := lit 0x00000000#32 + ∑ k : Fin 256, x i k * x i k
/-- The sum of row `i`'s entries. -/
def rsum (i : Fin 8192) : EReal := lit 0x00000000#32 + ∑ k : Fin 256, x i k
/-- The inner product of rows `i` and `j`. -/
def gram (i j : Fin 8192) : EReal := lit 0x00000000#32 + ∑ k : Fin 256, x i k * x j k
/-- The row statistic: sqn i + c₁ · rsum i. -/
def aRow (i : Fin 8192) : EReal := sqn x i + lit 0x360637BD#32 * rsum x i
/-- The column statistic: sqn j − c₁ · rsum j + c₂. -/
def bCol (j : Fin 8192) : EReal := (sqn x j - lit 0x360637BD#32 * rsum x j) + lit 0x2F8CBCCC#32
/-- The squared distance of rows `i` and `j`, clamped below at zero. -/
def dist (i j : Fin 8192) : EReal :=
  max ((aRow x i + bCol x j) - lit 0x40000000#32 * gram x i j) (lit 0x00000000#32)
/-- One pair's loss: the distance for equal labels, the hinge of the margin 1/2 otherwise. -/
def loss (i j : Fin 8192) : EReal :=
  if t i = t j then dist x i j else max (lit 0x3F000000#32 - dist x i j) (lit 0x00000000#32)
/-- The mean over rows of the summed pair losses. -/
def total : EReal :=
  Ideal.div (lit 0x00000000#32 + ∑ i : Fin 8192, ∑ j : Fin 8192, loss x t i j) (lit 0x46000000#32)

end Cert.Spec

end
-- ==== Proof.KI.HostAt.lean ====
/- The arrays the pallas_call's windows read, as the host operations before the region leave them, read at an
   index in the specification's words. With x i k the float argument at (i, k) and t i the label at i:
   the bf16 copy of the argument is the argument (a change of format is the identity at the ideal values); the
   column of row statistics at (i, 0) is aRow i = sqn i + c₁ · rsum i; the row of column statistics at (0, j) is
   bCol j = (sqn j − c₁ · rsum j) + c₂; the label column at (i, 0) and the label row at (0, j) are t i and t j. -/
import proofs.«121745_j76081050681843_2_alg».proof.Proof.KI.Base
import proofs.«121745_j76081050681843_2_alg».proof.Proof.Spec
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open scoped BigOperators

/-! ## Layout and reduction lemmas at the literal shapes -/

/-- An array of `n` entries cast to a column `[n, 1]` reads, at `(i, u)`, the operand at `i`. -/
theorem shapeCast_col_apply {α : Type} {n : ℕ} (x : (⟨1, ![n]⟩ : Shape).Idx → α)
    (h : (⟨1, ![n]⟩ : Shape).ShapeCasts ⟨2, ![n, 1]⟩) (i : Fin n) (u : Fin 1) :
    shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The host's sum along each row of a 8192 × 256 array, at row i: the initial value plus the sum of the row. -/
theorem hostRowSum_at (y : FVec Ideal S8192x256 .f32) (init : FVec Ideal S_ .f32) (i : Fin 8192) :
    Host.reduceAdd (F := Ideal) y init reducesTo_S8192x256_S8192_d1 h_S_ (ix1 i)
      = init (Shape.Idx.first h_S_) + ∑ k : Fin 256, y (ix2 i k) := by
  simp only [Host.reduceAdd, Ideal.hostReduceAdd_def]
  rw [Ideal.hostReduceAdd_single reducesTo_S8192x256_S8192_d1 (by decide)]
  refine congrArg (_ + ·) (Finset.sum_congr rfl fun k _ => ?_)
  exact congrArg y (funext fun a => Fin.ext (by match a with | ⟨0, _⟩ => rfl | ⟨1, _⟩ => rfl))

/-- A scalar broadcast to 8192 entries reads the scalar everywhere. -/
theorem bcastScalar_at (s : FVec Ideal S_ .f32) (i : S8192.Idx) :
    broadcastInDim S8192 ![] bcast_S_S8192 s i = s (fun a => a.elim0) :=
  broadcastInDim_apply _ bcast_S_S8192 s i (fun a => a.elim0) (fun a => a.elim0)

/-! ## The arguments and the arrays -/

variable (m : (ℓ : Loc nD τ sig) → Buf (Elt Ideal) ℓ)

/-- The float argument's entries, by coordinates. -/
abbrev X (c : Dev nD) : Fin 8192 → Fin 256 → EReal :=
  fun i k => (m ((c : Thread nD τ).loc main_arg0) : S8192x256.Idx → EReal) (ix2 i k)
/-- The labels, by coordinate. -/
abbrev T (c : Dev nD) : Fin 8192 → BitVec 32 :=
  fun i => (m ((c : Thread nD τ).loc main_arg1) : S8192.Idx → BitVec 32) (ix1 i)

/-- The bf16 copy of the float argument is the argument. -/
theorem V_v0 (c : Dev nD) :
    @Eq (S8192x256.Idx → EReal) (V (F := Ideal) m c main_v0)
      (truncf (F := Ideal) (s := S8192x256) (φ := .f32) .bf16
        (m ((c : Thread nD τ).loc main_arg0) : FVec Ideal S8192x256 .f32) bitsLt_bf16_f32) := by
  show StableHlo.after hostOps0 (fun b => m (c, b)) (Proc.devRef .tc main_v0) = _
  after_results

theorem V_v0_at (c : Dev nD) (i : Fin 8192) (k : Fin 256) :
    (V (F := Ideal) m c main_v0 : S8192x256.Idx → EReal) (ix2 i k) = X m c i k := by
  rw [V_v0]
  rfl

/-- The column of row statistics, as the host operations compute it. -/
theorem V_v7 (c : Dev nD) :
    (V (F := Ideal) m c main_v7 : S8192x1.Idx → EReal)
      = shapeCast S8192x1
          (addf
            (Host.reduceAdd (F := Ideal)
              (mulf (m ((c : Thread nD τ).loc main_arg0) : FVec Ideal S8192x256 .f32) (m ((c : Thread nD τ).loc main_arg0)))
              (constant S_ .f32 0x00000000#32) reducesTo_S8192x256_S8192_d1 h_S_)
            (mulf (broadcastInDim S8192 ![] bcast_S_S8192 (constant (F := Ideal) S_ .f32 0x360637BD#32))
              (Host.reduceAdd (F := Ideal) (m ((c : Thread nD τ).loc main_arg0) : FVec Ideal S8192x256 .f32)
                (constant S_ .f32 0x00000000#32) reducesTo_S8192x256_S8192_d1 h_S_)))
          shapeCasts_S8192_S8192x1 := by
  show StableHlo.after hostOps0 (fun b => m (c, b)) (Proc.devRef .tc main_v7) = _
  after_results_simp
  rfl

theorem V_v7_at (c : Dev nD) (i : Fin 8192) :
    (V (F := Ideal) m c main_v7 : S8192x1.Idx → EReal) (ix2 i (0 : Fin 1)) = Cert.Spec.aRow (X m c) i := by
  rw [V_v7, shapeCast_col_apply, addf_apply, mulf_apply, hostRowSum_at, hostRowSum_at, bcastScalar_at]
  rfl

/-- The row of column statistics, as the host operations compute it. -/
theorem V_v13 (c : Dev nD) :
    (V (F := Ideal) m c main_v13 : S1x8192.Idx → EReal)
      = shapeCast S1x8192
          (addf
            (subf
              (Host.reduceAdd (F := Ideal)
                (mulf (m ((c : Thread nD τ).loc main_arg0) : FVec Ideal S8192x256 .f32) (m ((c : Thread nD τ).loc main_arg0)))
                (constant S_ .f32 0x00000000#32) reducesTo_S8192x256_S8192_d1 h_S_)
              (mulf (broadcastInDim S8192 ![] bcast_S_S8192 (constant (F := Ideal) S_ .f32 0x360637BD#32))
                (Host.reduceAdd (F := Ideal) (m ((c : Thread nD τ).loc main_arg0) : FVec Ideal S8192x256 .f32)
                  (constant S_ .f32 0x00000000#32) reducesTo_S8192x256_S8192_d1 h_S_)))
            (broadcastInDim S8192 ![] bcast_S_S8192 (constant (F := Ideal) S_ .f32 0x2F8CBCCC#32)))
          shapeCasts_S8192_S1x8192 := by
  show StableHlo.after hostOps0 (fun b => m (c, b)) (Proc.devRef .tc main_v13) = _
  after_results_simp
  rfl

theorem V_v13_at (c : Dev nD) (j : Fin 8192) :
    (V (F := Ideal) m c main_v13 : S1x8192.Idx → EReal) (ix2 (0 : Fin 1) j) = Cert.Spec.bCol (X m c) j := by
  rw [V_v13, shapeCast_a_1a_apply, addf_apply, subf_apply, mulf_apply, hostRowSum_at, hostRowSum_at,
    bcastScalar_at, bcastScalar_at]
  rfl

/-- The label column. -/
theorem V_v14 (c : Dev nD) :
    (V (F := Ideal) m c main_v14 : S8192x1.Idx → BitVec 32)
      = shapeCast S8192x1 (m ((c : Thread nD τ).loc main_arg1) : S8192.Idx → BitVec 32) shapeCasts_S8192_S8192x1 := by
  show StableHlo.after hostOps0 (fun b => m (c, b)) (Proc.devRef .tc main_v14) = _
  after_results
  rfl

theorem V_v14_at (c : Dev nD) (i : Fin 8192) :
    (V (F := Ideal) m c main_v14 : S8192x1.Idx → BitVec 32) (ix2 i (0 : Fin 1)) = T m c i := by
  rw [V_v14, shapeCast_col_apply]

/-- The label row. -/
theorem V_v15 (c : Dev nD) :
    (V (F := Ideal) m c main_v15 : S1x8192.Idx → BitVec 32)
      = shapeCast S1x8192 (m ((c : Thread nD τ).loc main_arg1) : S8192.Idx → BitVec 32) shapeCasts_S8192_S1x8192 := by
  show StableHlo.after hostOps0 (fun b => m (c, b)) (Proc.devRef .tc main_v15) = _
  after_results
  rfl

theorem V_v15_at (c : Dev nD) (j : Fin 8192) :
    (V (F := Ideal) m c main_v15 : S1x8192.Idx → BitVec 32) (ix2 (0 : Fin 1) j) = T m c j := by
  rw [V_v15, shapeCast_a_1a_apply]

end Cert.KernelIdeal.Hand

end
-- ==== Proof.KI.Pay3.lean ====
/- The kernel's block of pair losses, read at an element (r, q) of the 1024 × 1024 block, at the ideal values.
   With A the row statistic at r (a column read at (r, 0)), B the column statistic at q (a row read at (0, q)) and
   G the contraction of row r of the left block with row q of the right block (the right operand is transposed
   before the product, and the product accumulates into the zero word), the clamped distance is
   D = max (A + B − 2 · G) 0 and the element is D when the two labels agree, else max (1/2 − D) 0. -/
import proofs.«121745_j76081050681843_2_alg».proof.Proof.Gen.KernelIdeal.Skeleton
import proofs.«121745_j76081050681843_2_alg».proof.Proof.Spec
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- A column `[a, 1]` broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- An integer comparison of two vectors at an index compares the elements. -/
theorem cmpi_vec_apply {s : Shape} {w : ℕ} (p : CmpIPredicate) (x y : IVec s w) (i : s.Idx) :
    cmpi p x y i = IntOp.cmpi p (x i) (y i) := rfl

/-! ## The product's operand indices -/

theorem lhs_dot_0 (i : S1024x1024.Idx) (c : dot_S1024x256_S256x1024_S1024x1024_1_0_0_1_n_n.contr.Idx) :
    (dot_S1024x256_S256x1024_S1024x1024_1_0_0_1_n_n.lhsIdx i c 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl
theorem lhs_dot_1 (i : S1024x1024.Idx) (c : dot_S1024x256_S256x1024_S1024x1024_1_0_0_1_n_n.contr.Idx) :
    (dot_S1024x256_S256x1024_S1024x1024_1_0_0_1_n_n.lhsIdx i c 1).val = (c ⟨0, by decide⟩).val :=
  dot_S1024x256_S256x1024_S1024x1024_1_0_0_1_n_n.lhsIdx_val_of_single rfl i c
theorem rhs_dot_0 (i : S1024x1024.Idx) (c : dot_S1024x256_S256x1024_S1024x1024_1_0_0_1_n_n.contr.Idx) :
    (dot_S1024x256_S256x1024_S1024x1024_1_0_0_1_n_n.rhsIdx i c 0).val = (c ⟨0, by decide⟩).val :=
  dot_S1024x256_S256x1024_S1024x1024_1_0_0_1_n_n.rhsIdx_val_of_single rfl i c
theorem rhs_dot_1 (i : S1024x1024.Idx) (c : dot_S1024x256_S256x1024_S1024x1024_1_0_0_1_n_n.contr.Idx) :
    (dot_S1024x256_S256x1024_S1024x1024_1_0_0_1_n_n.rhsIdx i c 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- The product into the zero accumulator at (r, q): the zero word plus the contraction of row r of the left
    operand with row q of the operand that was transposed. -/
theorem dot_at (v5 v7 : FVec Ideal S1024x256 .bf16) (r q : Fin 1024) :
    matmul (F := Ideal) dot_S1024x256_S256x1024_S1024x1024_1_0_0_1_n_n none v5
        (transpose S256x1024 [1, 0] v7 transposes_S1024x256_p1_0_S256x1024)
        (constant S1024x1024 .f32 0x00000000#32) (ix2 r q)
      = Cert.Spec.lit 0x00000000#32 + ∑ k : Fin 256, v5 (ix2 r k) * v7 (ix2 q k) := by
  show FloatOps.matmul dot_S1024x256_S256x1024_S1024x1024_1_0_0_1_n_n none v5
        (transpose S256x1024 [1, 0] v7 transposes_S1024x256_p1_0_S256x1024)
        (constant S1024x1024 .f32 0x00000000#32) (ix2 r q) = _
  rw [Ideal.matmul_apply]
  refine congrArg (Ideal.ofBits .f32 0x00000000#32 + ·) ?_
  rw [← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 r q)
      ((contrEquiv1 dot_S1024x256_S256x1024_S1024x1024_1_0_0_1_n_n 256 rfl rfl).symm k) = ix2 r k :=
    funext fun a => Fin.ext (by
      match a with
      | ⟨0, _⟩ => exact lhs_dot_0 _ _
      | ⟨1, _⟩ => exact (lhs_dot_1 _ _).trans hk)
  have er : dot_S1024x256_S256x1024_S1024x1024_1_0_0_1_n_n.rhsIdx (ix2 r q)
      ((contrEquiv1 dot_S1024x256_S256x1024_S1024x1024_1_0_0_1_n_n 256 rfl rfl).symm k) = ix2 k q :=
    funext fun a => Fin.ext (by
      match a with
      | ⟨0, _⟩ => exact (rhs_dot_0 _ _).trans hk
      | ⟨1, _⟩ => exact rhs_dot_1 _ _)
  rw [el, er, transpose_ix2_apply]

/-- The block of pair losses at (r, q). -/
theorem pay3_at (v5 v7 : Vec Ideal S1024x256 .bf16) (v11 : Vec Ideal S1024x1 .f32) (v13 : Vec Ideal S1x1024 .f32)
    (v23 : Vec Ideal S1024x1 .i32) (v25 : Vec Ideal S1x1024 .i32) (r q : Fin 1024) :
    Gen.k0_pay3 (F := Ideal) v5 v7 v11 v13 v23 v25 (ix2 r q)
      = if v23 (ix2 r (0 : Fin 1)) = v25 (ix2 (0 : Fin 1) q) then
          max ((v11 (ix2 r (0 : Fin 1)) + v13 (ix2 (0 : Fin 1) q))
            - Cert.Spec.lit 0x40000000#32 * (Cert.Spec.lit 0x00000000#32 + ∑ k : Fin 256, v5 (ix2 r k) * v7 (ix2 q k)))
            (Cert.Spec.lit 0x00000000#32)
        else
          max (Cert.Spec.lit 0x3F000000#32
            - max ((v11 (ix2 r (0 : Fin 1)) + v13 (ix2 (0 : Fin 1) q))
              - Cert.Spec.lit 0x40000000#32 * (Cert.Spec.lit 0x00000000#32 + ∑ k : Fin 256, v5 (ix2 r k) * v7 (ix2 q k)))
              (Cert.Spec.lit 0x00000000#32))
            (Cert.Spec.lit 0x00000000#32) := by
  unfold k0_pay3
  dsimp only []
  simp only [shapeCast_self]
  simp only [select_apply, cmpi_vec_apply, maximumf_apply, subf_apply, addf_apply, mulf_apply, broadcast_apply,
    broadcastTo_a1_ab_apply, broadcastTo_1b_ab_apply, dot_at v5 v7 r q, Ideal.ofBits_def]
  unfold Scalar.select
  by_cases h : v23 (ix2 r (0 : Fin 1)) = v25 (ix2 (0 : Fin 1) q)
  · rw [if_pos h]
    exact if_pos (IntOp.cmpi_eq.2 h)
  · rw [if_neg h]
    exact if_neg (fun e => h (IntOp.cmpi_eq.1 e))

end Cert.KernelIdeal.Pay

end
-- ==== Proof.SumLaw.lean ====
/- Finite sums re-indexed by blocks, in the extended reals (an additive commutative monoid).
   A sum over 8192 rows and 8192 columns is the sum over the 2 · 4 · 8 tiles of 1024 × 1024 entries, each tile's sum
   taken row by row from the zero word (which denotes 0); and the sum of an array of 16 × 128 entries that is zero
   off the two entries (0, 0) and (8, 0) is the sum of those two. -/
import proofs.«121745_j76081050681843_2_alg».proof.Proof.Spec
import Idealize.ShloMosaic.Lib.ValueIdx
import Idealize.ShloMosaic.PureOps.Ideal.Laws

noncomputable section

namespace Cert.SumLaw

open Idealize.ShloMosaic Idealize.ShloMosaic.ValueIdx
open scoped BigOperators

/-- The zero word denotes 0. -/
theorem lit_zero : Cert.Spec.lit 0x00000000#32 = 0 := Ideal.ofBits_zero_f32

/-- A sum over M · N indices is the double sum over M blocks of N. -/
theorem sum_blocks {β : Type} [AddCommMonoid β] (M N K : ℕ) (hK : M * N = K) (g : Fin K → β) :
    ∑ i : Fin K, g i
      = ∑ a : Fin M, ∑ b : Fin N, g ⟨N * a.val + b.val, by
          have := a.isLt; have := b.isLt; subst hK; nlinarith⟩ := by
  subst hK
  rw [← Equiv.sum_comp finProdFinEquiv g, Fintype.sum_prod_type]
  refine Finset.sum_congr rfl fun a _ => Finset.sum_congr rfl fun b _ => congrArg g (Fin.ext ?_)
  show b.val + N * a.val = N * a.val + b.val
  omega

/-- The sum over all pairs of rows, tile by tile. -/
theorem block_sum (f : Fin 8192 → Fin 8192 → EReal) :
    ∑ c : Fin 2, ∑ ii : Fin 4, ∑ j : Fin 8,
        (Cert.Spec.lit 0x00000000#32 + ∑ r : Fin 1024, (Cert.Spec.lit 0x00000000#32
          + ∑ q : Fin 1024, f ⟨1024 * (4 * c.val + ii.val) + r.val, by omega⟩ ⟨1024 * j.val + q.val, by omega⟩))
      = ∑ i : Fin 8192, ∑ j : Fin 8192, f i j := by
  simp only [lit_zero, zero_add]
  rw [sum_blocks 8 1024 8192 rfl (fun i => ∑ j : Fin 8192, f i j),
    sum_blocks 2 4 8 rfl (fun a : Fin 8 => ∑ b : Fin 1024, ∑ j : Fin 8192, f ⟨1024 * a.val + b.val, by omega⟩ j)]
  refine Finset.sum_congr rfl fun c _ => Finset.sum_congr rfl fun ii _ => ?_
  rw [Finset.sum_comm]
  refine Finset.sum_congr rfl fun r _ => ?_
  rw [sum_blocks 8 1024 8192 rfl (fun j => f _ j)]

/-- An output of two tiles of 8 × 128, each zero off its first entry, sums to the two first entries. -/
theorem tile_sum (T : Fin 2 → EReal) (out : (⟨2, ![16, 128]⟩ : Shape).Idx → EReal)
    (h0 : ∀ c : Fin 2, out (ix2 ⟨8 * c.val, by omega⟩ 0) = T c)
    (hz : ∀ (a : Fin 16) (b : Fin 128), ¬ (a.val % 8 = 0 ∧ b.val = 0) → out (ix2 a b) = Cert.Spec.lit 0x00000000#32) :
    ∑ idx : (⟨2, ![16, 128]⟩ : Shape).Idx, out idx = ∑ c : Fin 2, T c := by
  rw [sum_idx2 out, sum_blocks 2 8 16 rfl (fun a : Fin 16 => ∑ b : Fin 128, out (ix2 a b))]
  refine Finset.sum_congr rfl fun c _ => ?_
  rw [Finset.sum_eq_single (0 : Fin 8), Finset.sum_eq_single (0 : Fin 128)]
  · exact h0 c
  · intro b _ hb
    rw [hz _ b (fun h => hb (Fin.ext h.2)), lit_zero]
  · intro h; exact absurd (Finset.mem_univ _) h
  · intro d _ hd
    refine Finset.sum_eq_zero fun b _ => ?_
    rw [hz _ b (fun h => hd (Fin.ext (by
      have h1 : (8 * c.val + d.val) % 8 = 0 := h.1
      have := d.isLt
      show d.val = 0
      omega))), lit_zero]
  · intro h; exact absurd (Finset.mem_univ _) h

end Cert.SumLaw

end
-- ==== Proof.KI.Value5.lean ====
/-
  The program's value. At the exact values each point's loss block is the specification's pair losses of the
  point's row block and column block (the region-entry arrays are the row statistic, the column statistic, the rows
  and the labels), so a point's block sum is the sum of the pair losses over its 1024 × 1024 tile; the result array's
  two nonzero entries add up the 2 · 4 · 8 tiles, which is the sum over all pairs; the host's total of the array
  and its division by the row count are the specification's.
-/
import proofs.«121745_j76081050681843_2_alg».proof.Proof.KI.Value3
import proofs.«121745_j76081050681843_2_alg».proof.Proof.KI.Value4
import proofs.«121745_j76081050681843_2_alg».proof.Proof.KI.HostAt
import proofs.«121745_j76081050681843_2_alg».proof.Proof.KI.Pay3
import proofs.«121745_j76081050681843_2_alg».proof.Proof.SumLaw

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

variable (mI : (ℓ : Loc nD τ sig) → Buf (Elt Ideal) ℓ)

/-- The loss block at a point is the specification's pair losses of the point's row and column blocks. -/
theorem lossBlk_apply (c : Dev nD) (t : Fin cfg0.N) (r q : Fin 1024) :
    lossBlk (F := Ideal) mI c t (ix2 r q)
      = Cert.Spec.loss (X mI c) (T mI c) ⟨1024 * (t.val / 8) + r.val, rowIx_lt t r⟩ ⟨1024 * (t.val % 8) + q.val, colIx_lt t q⟩ := by
  unfold lossBlk
  refine (Cert.KernelIdeal.Pay.pay3_at _ _ _ _ _ _ r q).trans ?_
  simp only [iblk0_apply, iblk1_apply, iblk2_apply, iblk3_apply, iblk4_apply, iblk5_apply]
  rw [V_v14_at mI c, V_v15_at mI c, V_v7_at mI c, V_v13_at mI c]
  simp only [V_v0_at mI c]
  rfl

/-- A position's block sum: the pair losses summed over its tile. -/
theorem psum_eq (c : Dev nD) (n : ℕ) (hn : n < cfg0.N) :
    psum mI c n = ∑ r : Fin 1024, ∑ q : Fin 1024,
      Cert.Spec.loss (X mI c) (T mI c) ⟨1024 * (n / 8) + r.val, rowIx_lt ⟨n, hn⟩ r⟩ ⟨1024 * (n % 8) + q.val, colIx_lt ⟨n, hn⟩ q⟩ := by
  unfold psum
  rw [dif_pos hn]
  unfold tileSum
  exact Finset.sum_congr rfl fun r _ => Finset.sum_congr rfl fun q _ => lossBlk_apply mI c ⟨n, hn⟩ r q

/-- The result array's entries add up to the sum of all pair losses. -/
theorem sum_final (c : Dev nD) :
    ∑ idx : S16x128.Idx, final mI c idx = ∑ i : Fin 8192, ∑ j : Fin 8192, Cert.Spec.loss (X mI c) (T mI c) i j := by
  have hN : cfg0.N = 64 := N_0
  rw [Cert.SumLaw.tile_sum (fun c' : Fin 2 => ∑ k ∈ Finset.range 32, psum mI c (32 * c'.val + k)) (final mI c)
    (fun c' => by
      have hc := c'.isLt
      show (if (8 * c'.val) % 8 = 0 ∧ (0 : ℕ) = 0 then ∑ k ∈ Finset.range 32, psum mI c (32 * (8 * c'.val / 8) + k) else (0 : EReal)) = _
      rw [if_pos (show (8 * c'.val) % 8 = 0 ∧ (0 : ℕ) = 0 from ⟨by omega, rfl⟩)]
      rw [show 8 * c'.val / 8 = c'.val from by omega])
    (fun a b h => by
      show (if a.val % 8 = 0 ∧ b.val = 0 then ∑ k ∈ Finset.range 32, psum mI c (32 * (a.val / 8) + k) else (0 : EReal)) = _
      rw [if_neg h, Cert.SumLaw.lit_zero])]
  refine Eq.trans ?_ (Cert.SumLaw.block_sum (Cert.Spec.loss (X mI c) (T mI c)))
  refine Finset.sum_congr rfl fun c' _ => ?_
  rw [Finset.sum_range, Cert.SumLaw.sum_blocks 4 8 32 rfl (fun i : Fin 32 => psum mI c (32 * c'.val + i.val))]
  refine Finset.sum_congr rfl fun ii _ => Finset.sum_congr rfl fun j _ => ?_
  have hc := c'.isLt
  have hi := ii.isLt
  have hj := j.isLt
  rw [psum_eq mI c (32 * c'.val + (8 * ii.val + j.val)) (by omega)]
  simp only [Cert.SumLaw.lit_zero, zero_add]
  refine Finset.sum_congr rfl fun r _ => Finset.sum_congr rfl fun q _ => ?_
  exact congrArg₂ (Cert.Spec.loss (X mI c) (T mI c)) (Fin.ext (by
      show 1024 * ((32 * c'.val + (8 * ii.val + j.val)) / 8) + r.val = 1024 * (4 * c'.val + ii.val) + r.val; omega))
    (Fin.ext (by
      show 1024 * ((32 * c'.val + (8 * ii.val + j.val)) % 8) + q.val = 1024 * j.val + q.val; omega))

/-- THE VALUE: the host's total of the result array, divided by the row count, is the specification's mean loss. -/
theorem kernel_total (c : Dev nD) :
    Host.divf (F := Ideal) (Host.reduceAdd (F := Ideal) ((dats mI 0 c).arrAt 6 cfg0.N) (constant S_ .f32 0x00000000#32) reducesTo_S16x128_S_d0_1 h_S_) (constant S_ .f32 0x46000000#32)
      = fun _ => Cert.Spec.total (X mI c) (T mI c) := by
  rw [final_eq]
  funext i
  show Ideal.div (Ideal.hostReduceAdd reducesTo_S16x128_S_d0_1 (final mI c) (Ideal.ofBits .f32 0x00000000#32) i) (Ideal.ofBits .f32 0x46000000#32) = _
  rw [Ideal.hostReduceAdd_total reducesTo_S16x128_S_d0_1 (fun b => b.elim0) (final mI c) _ i, sum_final]
  rfl

end Cert.KernelIdeal.Hand

end
-- ==== Proof.RefFinite.lean ====
/- The precondition read back: when the predicate "every |x| is below +∞" holds of the float argument,
   every entry is a real number (neither infinity nor the junk value ⊥). -/
import proofs.«121745_j76081050681843_2_alg».proof.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.RefBridge

open Idealize.ShloMosaic

/-- The scalar shape has one index. -/
instance subsingleton_scalar_idx : Subsingleton Cert.Pre_finite_inputs.S_.Idx := ⟨fun a b => funext fun d => d.elim0⟩

/-- An extended real whose absolute value max x (−x) is below ⊤ is a real. -/
theorem real_of_abs_lt_top (x : EReal) (h : max x (-x) < ⊤) : ∃ r : ℝ, x = (r : EReal) := by
  have h1 : x ≠ ⊤ := fun e => by rw [e] at h; simp at h
  have h2 : x ≠ ⊥ := fun e => by rw [e] at h; simp at h
  exact ⟨x.toReal, (EReal.coe_toReal h1 h2).symm⟩

/-- Under the precondition every float entry is a real number. -/
theorem finite_of_pre [Cert.Pre_finite_inputs.Facts] (x0 : FVec Ideal Cert.Pre_finite_inputs.S8192x256 .f32)
    (x1 : IVec Cert.Pre_finite_inputs.S8192 32)
    (h : Cert.Pre_finite_inputs.fn (F := Ideal) x0 x1 = fun _ => 1#1) : ∀ i, ∃ r : ℝ, x0 i = (r : EReal) := by
  intro i
  have h0 := congrFun h (fun a => a.elim0)
  unfold Cert.Pre_finite_inputs.fn at h0
  have hi := Host.reduce_andi_all _ _ _ _ _ h0 i
  rw [ValueIdx.cmpf_apply] at hi
  rw [broadcastInDim_apply _ Cert.Pre_finite_inputs.Facts.bcast_S_S8192x256 _ i (fun a => a.elim0) (fun a => a.elim0)] at hi
  refine real_of_abs_lt_top (x0 i) ?_
  have hc : Ideal.cmp .olt (max (x0 i) (-(x0 i))) (Ideal.ofBits .f32 0x7F800000#32) = 1#1 := hi
  have htop : Ideal.ofBits .f32 0x7F800000#32 = ⊤ := by simp [Ideal.ofBits, Ideal.ieee]
  rw [htop] at hc
  unfold Ideal.cmp at hc
  by_contra hn
  simp only [hn, decide_false] at hc
  exact absurd hc (by decide)

end Cert.RefBridge

end
-- ==== Proof.RefValue.lean ====
/- The reference's operations read at an element, in the specification's words.
   With x i k the float argument at (i, k) and t i the label at i:
   the two row reductions are sqn and rsum, the contraction at (i, j) is Σ_k x i k · x j k, the unclamped
   distance at (i, j) is ((sqn i + sqn j) − 2 · Σ_k x i k · x j k) + c₁ · (rsum i − rsum j) + c₂, and the selected
   loss at (i, j) chooses between it and the hinge on the equality of the two labels. -/
import proofs.«121745_j76081050681843_2_alg».proof.Proof.Gen.ReferenceIdeal.Read
import proofs.«121745_j76081050681843_2_alg».proof.Proof.Spec
import Idealize.ShloMosaic.Lib.ValueIdx
import Idealize.ShloMosaic.Lib.Affine

noncomputable section

namespace Cert.RefValue

open Cert.ReferenceIdeal Cert.ReferenceIdeal.Read Idealize.ShloMosaic Idealize.ShloMosaic.ValueIdx
open scoped BigOperators

/-! ## The layout operations' index functions at an index built from coordinates -/

theorem idx_v1 (i : Fin 8192) (k : Fin 256) : idx_main_v1 (ix1 i) k = ix2 i k := by
  funext a; match a with | ⟨0, _⟩ => rfl | ⟨1, _⟩ => rfl
theorem idx_v2 (i : Fin 8192) (k : Fin 256) : idx_main_v2 (ix1 i) k = ix2 i k := by
  funext a; match a with | ⟨0, _⟩ => rfl | ⟨1, _⟩ => rfl
theorem lidx_v4 (i j : Fin 8192) (k : Fin 256) : lidx_main_v4 (ix2 i j) k = ix2 i k := by
  funext a; match a with | ⟨0, _⟩ => rfl | ⟨1, _⟩ => rfl
theorem ridx_v4 (i j : Fin 8192) (k : Fin 256) : idx_main_v3 (ridx_main_v4 (ix2 i j) k) = ix2 j k := by
  funext a; match a with | ⟨0, _⟩ => rfl | ⟨1, _⟩ => rfl
theorem idx_v57 (i j : Fin 8192) : idx_main_v5 (idx_main_v7 (ix2 i j)) = ix1 i := by
  funext a; match a with | ⟨0, _⟩ => rfl
theorem idx_v68 (i j : Fin 8192) : idx_main_v6 (idx_main_v8 (ix2 i j)) = ix1 j := by
  funext a; match a with | ⟨0, _⟩ => rfl
theorem idx_v1315 (i j : Fin 8192) : idx_main_v13 (idx_main_v15 (ix2 i j)) = ix1 i := by
  funext a; match a with | ⟨0, _⟩ => rfl
theorem idx_v1416 (i j : Fin 8192) : idx_main_v14 (idx_main_v16 (ix2 i j)) = ix1 j := by
  funext a; match a with | ⟨0, _⟩ => rfl
theorem idx_v2325 (i j : Fin 8192) : idx_main_v23 (idx_main_v25 (ix2 i j)) = ix1 i := by
  funext a; match a with | ⟨0, _⟩ => rfl
theorem idx_v2426 (i j : Fin 8192) : idx_main_v24 (idx_main_v26 (ix2 i j)) = ix1 j := by
  funext a; match a with | ⟨0, _⟩ => rfl

/-! ## The operations at an element -/

section
variable (x0 : (⟨S8192x256, .f32⟩ : BufTy).Contents (Elt Ideal)) (x1 : (⟨S8192, .i32⟩ : BufTy).Contents (Elt Ideal))
variable (x : Fin 8192 → Fin 256 → EReal) (t : Fin 8192 → BitVec 32)
variable (hx : ∀ i k, x0 (ix2 i k) = x i k) (ht : ∀ i, x1 (ix1 i) = t i)

include hx in
/-- The first row reduction is the squared norm. -/
theorem v1_at (i : Fin 8192) : val_main_v1 (F := Ideal) x0 (ix1 i) = Cert.Spec.sqn x i := by
  rw [val_main_v1_apply]
  simp only [val_main_v0_apply, val_main_cst_apply, idx_v1, hx, Ideal.mulf_def, Ideal.ofBits_def]
  rfl

include hx in
/-- The second row reduction is the row sum. -/
theorem v2_at (i : Fin 8192) : val_main_v2 (F := Ideal) x0 (ix1 i) = Cert.Spec.rsum x i := by
  rw [val_main_v2_apply]
  simp only [val_main_cst_0_apply, idx_v2, hx, Ideal.ofBits_def]
  rfl

include hx in
/-- The contraction at (i, j) is the inner product of rows i and j. -/
theorem v4_at (i j : Fin 8192) :
    val_main_v4 (F := Ideal) x0 (ix2 i j) = ∑ k : Fin 256, x i k * x j k := by
  rw [val_main_v4_apply]
  simp only [val_main_v3_apply, lidx_v4, ridx_v4, hx]

include hx in
/-- The unclamped distance at (i, j), in the reference's arrangement. -/
theorem v22_at (i j : Fin 8192) :
    val_main_v22 (F := Ideal) x0 (ix2 i j)
      = (((Cert.Spec.sqn x i + Cert.Spec.sqn x j)
            - Ideal.ofBits .f32 0x40000000#32 * ∑ k : Fin 256, x i k * x j k)
          + Ideal.ofBits .f32 0x360637BD#32 * (Cert.Spec.rsum x i - Cert.Spec.rsum x j))
        + Ideal.ofBits .f32 0x2F8CBCCC#32 := by
  rw [val_main_v22_apply, val_main_v20_apply, val_main_v12_apply, val_main_v9_apply, val_main_v11_apply,
    val_main_v19_apply, val_main_v17_apply,
    val_main_v7_apply, val_main_v5_apply, idx_v57, v1_at x0 x hx,
    val_main_v8_apply, val_main_v6_apply, idx_v68, v1_at x0 x hx,
    val_main_v15_apply, val_main_v13_apply, idx_v1315, v2_at x0 x hx,
    val_main_v16_apply, val_main_v14_apply, idx_v1416, v2_at x0 x hx,
    v4_at x0 x hx,
    val_main_v10_apply, val_main_cst_1_apply, val_main_v18_apply, val_main_cst_2_apply,
    val_main_v21_apply, val_main_cst_3_apply]
  rfl

include ht in
/-- The label comparison at (i, j). -/
theorem v27_at (i j : Fin 8192) :
    val_main_v27 (F := Ideal) x1 (ix2 i j) = IntOp.cmpi .eq (t i) (t j) := by
  rw [val_main_v27_apply, val_main_v25_apply, val_main_v23_apply, idx_v2325, ht,
    val_main_v26_apply, val_main_v24_apply, idx_v2426, ht]

include hx ht in
/-- The selected loss at (i, j), given that the unclamped distance there is the specification's distance. -/
theorem v32_at (i j : Fin 8192)
    (hd : val_main_v22 (F := Ideal) x0 (ix2 i j) = Cert.Spec.dist x i j) :
    val_main_v32 (F := Ideal) x0 x1 (ix2 i j) = Cert.Spec.loss x t i j := by
  rw [val_main_v32_apply, v27_at x1 t ht, val_main_v31_apply, val_main_v29_apply, hd,
    val_main_v28_apply, val_main_cst_4_apply, val_main_v30_apply, val_main_cst_5_apply]
  unfold Cert.Spec.loss Scalar.select
  by_cases h : t i = t j
  · rw [if_pos h]
    exact if_pos (IntOp.cmpi_eq.2 h)
  · rw [if_neg h]
    exact (if_neg (fun e => h (IntOp.cmpi_eq.1 e))).trans rfl

end

end Cert.RefValue

end
-- ==== Proof.Consts.lean ====
/- The float constants the two programs spell, as the extended reals their f32 patterns denote.
   c₁ = 0x8637BD / 2^42 (sign 0, biased exponent 108), c₂ = 0x8CBCCC / 2^55 (sign 0, biased exponent 95),
   and the words of 2 and 1/2. One module states them all, so no other module unfolds the pattern reader. -/
import Idealize.ShloMosaic.PureOps.Ideal
import Idealize.ShloMosaic.PureOps.Ideal.Laws

noncomputable section

namespace Cert.Consts

open Idealize.ShloMosaic

/-- The real c₁ = 0x8637BD / 2^42. -/
def c1 : ℝ := 8796093 / 2 ^ 42
/-- The real c₂ = 0x8CBCCC / 2^55. -/
def c2 : ℝ := 9223372 / 2 ^ 55

/-- The zero word denotes the real 0. -/
theorem lit_zero : Ideal.ofBits .f32 0x00000000#32 = ((0 : ℝ) : EReal) := by
  rw [Ideal.ofBits_zero_f32, EReal.coe_zero]

/-- The word of c₁ denotes c₁. -/
theorem lit_c1 : Ideal.ofBits .f32 0x360637BD#32 = ((c1 : ℝ) : EReal) := by
  unfold c1
  simp [Ideal.ofBits, Ideal.ieee, -EReal.coe_mul]; norm_num

/-- The word of c₂ denotes c₂. -/
theorem lit_c2 : Ideal.ofBits .f32 0x2F8CBCCC#32 = ((c2 : ℝ) : EReal) := by
  unfold c2
  simp [Ideal.ofBits, Ideal.ieee, -EReal.coe_mul]; norm_num

/-- The word of 2 denotes 2. -/
theorem lit_two : Ideal.ofBits .f32 0x40000000#32 = ((2 : ℝ) : EReal) := by
  simp [Ideal.ofBits, Ideal.ieee, -EReal.coe_mul]; norm_num

/-- The word of 1/2 denotes 1/2. -/
theorem lit_half : Ideal.ofBits .f32 0x3F000000#32 = (((1 / 2 : ℝ)) : EReal) := by
  simp [Ideal.ofBits, Ideal.ieee, -EReal.coe_mul]; norm_num

/-- c₂ exceeds 64 · c₁²: 0x8637BD² = 77371252064649 < 77371252146176 = 0x8CBCCC · 2^23. -/
theorem c2_gap : 0 ≤ c2 - 64 * c1 ^ 2 := by
  unfold c1 c2; norm_num

end Cert.Consts

end
-- ==== Proof.RealLaw.lean ====
/- Real arithmetic of the squared distance with a shift.

   For two rows a, b of 256 reals and reals c₁, c₂, with u_k = a_k − b_k,
     (Σ a_k² + Σ b_k² − 2 Σ a_k b_k) + c₁ (Σ a_k − Σ b_k) + c₂ = Σ_k (u_k + c₁/2)² + (c₂ − 64 c₁²)
   (256 entries: 256 · c₁²/4 = 64 c₁²), so the left side is nonnegative as soon as c₂ ≥ 64 c₁².
   Both programs' arrangements of the left side are stated, each sum starting from an added 0 as theirs do. -/
import Mathlib.Algebra.BigOperators.Group.Finset.Basic
import Mathlib.Algebra.BigOperators.Ring.Finset
import Mathlib.Algebra.Order.BigOperators.Ring.Finset
import Mathlib.Data.Real.Basic
import Mathlib.Data.Fintype.BigOperators
import Mathlib.Tactic.Ring
import Mathlib.Tactic.Linarith
import Mathlib.Tactic.NormNum

namespace Cert.RealLaw

open scoped BigOperators

variable (a b : Fin 256 → ℝ) (c1 c2 : ℝ)

/-- The completed square: the sum of the shifted squared differences, expanded. -/
theorem sum_sq_shift :
    ∑ k : Fin 256, (a k - b k + c1 / 2) ^ 2
      = (∑ k : Fin 256, a k * a k) + (∑ k : Fin 256, b k * b k) - 2 * (∑ k : Fin 256, a k * b k)
        + c1 * ((∑ k : Fin 256, a k) - (∑ k : Fin 256, b k)) + 64 * c1 ^ 2 := by
  have h : ∀ k : Fin 256, (a k - b k + c1 / 2) ^ 2
      = a k * a k + b k * b k - 2 * (a k * b k) + c1 * (a k - b k) + c1 ^ 2 / 4 := fun k => by ring
  simp only [h, Finset.sum_add_distrib, Finset.sum_sub_distrib, ← Finset.mul_sum, Finset.sum_const,
    Finset.card_univ, Fintype.card_fin, nsmul_eq_mul]
  ring

/-- The distance in the order the clamping program combines its terms. -/
def dK : ℝ :=
  (((0 + ∑ k : Fin 256, a k * a k) + c1 * (0 + ∑ k : Fin 256, a k))
    + (((0 + ∑ k : Fin 256, b k * b k) - c1 * (0 + ∑ k : Fin 256, b k)) + c2))
    - 2 * (0 + ∑ k : Fin 256, a k * b k)

/-- The distance in the order the other program combines them. -/
def dR : ℝ :=
  ((((0 + ∑ k : Fin 256, a k * a k) + (0 + ∑ k : Fin 256, b k * b k)) - 2 * (∑ k : Fin 256, a k * b k))
    + c1 * ((0 + ∑ k : Fin 256, a k) - (0 + ∑ k : Fin 256, b k))) + c2

/-- The two arrangements agree. -/
theorem dR_eq_dK : dR a b c1 c2 = dK a b c1 c2 := by
  unfold dR dK; ring

/-- The distance is the square sum plus the gap c₂ − 64 c₁². -/
theorem dK_eq_sq : dK a b c1 c2 = ∑ k : Fin 256, (a k - b k + c1 / 2) ^ 2 + (c2 - 64 * c1 ^ 2) := by
  rw [sum_sq_shift]; unfold dK; ring

/-- With a nonnegative gap the distance is nonnegative. -/
theorem dK_nonneg (h : 0 ≤ c2 - 64 * c1 ^ 2) : 0 ≤ dK a b c1 c2 := by
  rw [dK_eq_sq]
  exact add_nonneg (Finset.sum_nonneg fun k _ => sq_nonneg _) h

end Cert.RealLaw
-- ==== Proof.RealERealLaw.lean ====
/- The distance on rows of REALS, read in the extended reals: for real rows the unclamped distance in the order
   the reference combines its terms equals the specification's clamped distance, because the real distance is
   a sum of squares plus the positive gap c₂ − 64 c₁². The coercion of reals into the extended reals is pushed
   through the finite sums, the products and the differences (all terms are real, so nothing meets an infinity). -/
import proofs.«121745_j76081050681843_2_alg».proof.Proof.Spec
import proofs.«121745_j76081050681843_2_alg».proof.Proof.Consts
import proofs.«121745_j76081050681843_2_alg».proof.Proof.RealLaw

noncomputable section

namespace Cert.ERealLaw

open Idealize.ShloMosaic
open scoped BigOperators

/-- The coercion of reals commutes with a finite sum. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

variable (X : Fin 8192 → Fin 256 → ℝ)

/-- The rows as extended reals. -/
abbrev ext : Fin 8192 → Fin 256 → EReal := fun i k => (X i k : EReal)

theorem sqn_coe (i : Fin 8192) :
    Cert.Spec.sqn (ext X) i = ((0 + ∑ k : Fin 256, X i k * X i k : ℝ) : EReal) := by
  show Ideal.ofBits .f32 0x00000000#32 + ∑ k : Fin 256, (X i k : EReal) * (X i k : EReal) = _
  rw [Cert.Consts.lit_zero, EReal.coe_add, coe_sum]
  simp only [EReal.coe_mul]

theorem rsum_coe (i : Fin 8192) :
    Cert.Spec.rsum (ext X) i = ((0 + ∑ k : Fin 256, X i k : ℝ) : EReal) := by
  show Ideal.ofBits .f32 0x00000000#32 + ∑ k : Fin 256, (X i k : EReal) = _
  rw [Cert.Consts.lit_zero, EReal.coe_add, coe_sum]

theorem dot_coe (i j : Fin 8192) :
    ∑ k : Fin 256, (X i k : EReal) * (X j k : EReal) = ((∑ k : Fin 256, X i k * X j k : ℝ) : EReal) := by
  rw [coe_sum]
  simp only [EReal.coe_mul]

theorem gram_coe (i j : Fin 8192) :
    Cert.Spec.gram (ext X) i j = ((0 + ∑ k : Fin 256, X i k * X j k : ℝ) : EReal) := by
  show Ideal.ofBits .f32 0x00000000#32 + ∑ k : Fin 256, (X i k : EReal) * (X j k : EReal) = _
  rw [Cert.Consts.lit_zero, dot_coe, EReal.coe_add]

/-- The specification's distance of two real rows is the real distance (the clamp at 0 is idle). -/
theorem dist_coe (i j : Fin 8192) :
    Cert.Spec.dist (ext X) i j = ((Cert.RealLaw.dK (X i) (X j) Cert.Consts.c1 Cert.Consts.c2 : ℝ) : EReal) := by
  unfold Cert.Spec.dist Cert.Spec.aRow Cert.Spec.bCol
  rw [sqn_coe, sqn_coe, rsum_coe, rsum_coe, gram_coe]
  simp only [Cert.Spec.lit]
  rw [Cert.Consts.lit_zero, Cert.Consts.lit_c1, Cert.Consts.lit_c2, Cert.Consts.lit_two]
  simp only [← EReal.coe_add, ← EReal.coe_mul, ← EReal.coe_sub]
  exact max_eq_left (EReal.coe_le_coe_iff.2
    (Cert.RealLaw.dK_nonneg (X i) (X j) Cert.Consts.c1 Cert.Consts.c2 Cert.Consts.c2_gap))

/-- The reference's arrangement of the distance — no clamp, the inner product without the added zero —
    is the specification's distance, for real rows. -/
theorem ref_dist_eq (i j : Fin 8192) :
    (((Cert.Spec.sqn (ext X) i + Cert.Spec.sqn (ext X) j)
        - Ideal.ofBits .f32 0x40000000#32 * ∑ k : Fin 256, (X i k : EReal) * (X j k : EReal))
      + Ideal.ofBits .f32 0x360637BD#32 * (Cert.Spec.rsum (ext X) i - Cert.Spec.rsum (ext X) j))
      + Ideal.ofBits .f32 0x2F8CBCCC#32
      = Cert.Spec.dist (ext X) i j := by
  rw [dist_coe, ← Cert.RealLaw.dR_eq_dK, sqn_coe, sqn_coe, rsum_coe, rsum_coe, dot_coe,
    Cert.Consts.lit_c1, Cert.Consts.lit_c2, Cert.Consts.lit_two]
  simp only [← EReal.coe_add, ← EReal.coe_mul, ← EReal.coe_sub]
  rfl

end Cert.ERealLaw

end
-- ==== Proof.RefBridge.lean ====
/- The reference side of the certificate: under the precondition every float entry is a real number, and for
   real entries the reference's result is the specification's total.
   The reference does not clamp the distance at zero and combines its terms in another order than the
   specification; on real rows the two distances agree (the real distance is a sum of squares plus the positive
   gap c₂ − 64 c₁²), so the selected losses agree pair by pair, and the sum over all pairs, read as the double
   sum over the two coordinates, divided by the same word, is the total. -/
import proofs.«121745_j76081050681843_2_alg».proof.Proof.RefFinite
import proofs.«121745_j76081050681843_2_alg».proof.Proof.RefValue
import proofs.«121745_j76081050681843_2_alg».proof.Proof.RealERealLaw

noncomputable section

namespace Cert.RefBridge

open Cert.ReferenceIdeal Cert.ReferenceIdeal.Read Idealize.ShloMosaic Idealize.ShloMosaic.ValueIdx
open scoped BigOperators

/-- The reference's result is the specification's total. -/
theorem ref_eq_total (x0 : (⟨Cert.ReferenceIdeal.S8192x256, .f32⟩ : BufTy).Contents (Elt Ideal))
    (x1 : (⟨Cert.ReferenceIdeal.S8192, .i32⟩ : BufTy).Contents (Elt Ideal))
    (hfin : ∀ i, ∃ r : ℝ, x0 i = (r : EReal)) :
    Cert.ReferenceIdeal.Read.val_main_v34 (F := Ideal) x0 x1
      = fun _ => Cert.Spec.total (fun i k => x0 (ValueIdx.ix2 i k)) (fun i => x1 (ValueIdx.ix1 i)) := by
  choose R hR using hfin
  have hx : ∀ (i : Fin 8192) (k : Fin 256), x0 (ix2 i k) = Cert.ERealLaw.ext (fun i k => R (ix2 i k)) i k :=
    fun i k => hR _
  have hrows : (fun (i : Fin 8192) (k : Fin 256) => x0 (ix2 i k)) = Cert.ERealLaw.ext (fun i k => R (ix2 i k)) :=
    funext fun i => funext fun k => hR _
  rw [hrows]
  generalize (fun (i : Fin 8192) (k : Fin 256) => R (ix2 i k)) = X at hx ⊢
  have ht : ∀ i : Fin 8192, x1 (ix1 i) = (fun i => x1 (ix1 i)) i := fun _ => rfl
  generalize (fun i : Fin 8192 => x1 (ix1 i)) = t at ht ⊢
  have hloss : ∀ i j : Fin 8192,
      val_main_v32 (F := Ideal) x0 x1 (ix2 i j) = Cert.Spec.loss (Cert.ERealLaw.ext X) t i j := fun i j =>
    Cert.RefValue.v32_at x0 x1 (Cert.ERealLaw.ext X) t hx ht i j
      ((Cert.RefValue.v22_at x0 (Cert.ERealLaw.ext X) hx i j).trans (Cert.ERealLaw.ref_dist_eq X i j))
  funext i0
  rw [val_main_v34_apply, val_main_v33_apply, val_main_cst_6_apply, val_main_cst_7_apply,
    sum_idx2 (val_main_v32 (F := Ideal) x0 x1)]
  simp only [hloss]
  rfl

end Cert.RefBridge

end
-- ==== Proof.lean ====
/-
  The contrastive-loss kernel against its jnp reference, on the extended reals.

  The kernel's program rounds the input to bf16 (the identity here), forms per row the statistics
  aRow i = Σ_k x_ik² + c₁ Σ_k x_ik and bCol j = Σ_k x_jk² − c₁ Σ_k x_jk + c₂ on the host, and in one pallas_call over a
  2 × 4 × 8 grid of 1024 × 1024 blocks computes dist = max (aRow i + bCol j − 2 Σ_k x_ik x_jk) 0 and the pair loss
  (dist for equal labels, max (1/2 − dist) 0 otherwise), sums each block and adds the block's sum into cell (0, 0) of the
  core's 8 × 128 output tile, which it zeroes at the core's first point; the host then sums the 16 × 128 output and
  divides by 8192.  The reference forms the same squared distance in another arrangement, without the clamp at zero,
  takes the same pair loss, sums all 8192² pairs and divides by 8192.

  Both are `Cert.Spec.total` of the arguments (Proof/Spec.lean):
  * the kernel side needs only re-association of finite sums and 0 + x = x: each output tile after its core's 32 points
    holds the sum of the 32 block sums in cell (0, 0) and zero elsewhere (induction over the grid points), the blocks tile
    the 8192 × 8192 pairs, and the host's sum of the output adds the two cores' cells;
  * the reference side needs the inputs finite (the precondition): with u_k = x_ik − x_jk the unclamped distance is
    Σ_k (u_k + c₁/2)² + (c₂ − 64 c₁²), and for the two f32 words c₁ = 8796093 / 2⁴², c₂ = 9223372 / 2⁵⁵ the gap
    c₂ − 64 c₁² = 81527 / 2⁷⁸ is positive, so the distance is never negative and the clamp is the identity.

  The frames: two input windows of the pallas_call read one array, so its full share is dealt to them in halves at the
  region's entry (Proof/KI/Launch.lean, Proof/K/Launch.lean); the body resets or accumulates by the grid point
  (Proof/KI/Data.lean, Proof/K/Data.lean).  The idealization rewrote nothing, so `preserves` is `True`.
-/
import proofs.«121745_j76081050681843_2_alg».proof.Defs
import proofs.«121745_j76081050681843_2_alg».proof.Proof.Gen.Kernel
import proofs.«121745_j76081050681843_2_alg».proof.Proof.Gen.KernelIdeal
import proofs.«121745_j76081050681843_2_alg».proof.Proof.Gen.ReferenceIdeal
import proofs.«121745_j76081050681843_2_alg».proof.Proof.Gen.Pre_finite_inputs
import proofs.«121745_j76081050681843_2_alg».proof.Proof.Gen.ReferenceIdeal.Run
import proofs.«121745_j76081050681843_2_alg».proof.Proof.Gen.ReferenceIdeal.Read
import proofs.«121745_j76081050681843_2_alg».proof.Proof.K.Run
import proofs.«121745_j76081050681843_2_alg».proof.Proof.KI.Run
import proofs.«121745_j76081050681843_2_alg».proof.Proof.KI.Value5
import proofs.«121745_j76081050681843_2_alg».proof.Proof.RefBridge
import Idealize.ShloMosaic.Adequacy
import Idealize.ShloMosaic.Init

noncomputable section

namespace Cert.Proof

open Idealize.ShloMosaic Idealize.ShloMosaic.TcCoe Idealize.SL.Sem

/-- The kernel's program as printed runs to its end and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs both idealized programs end with the specification's total in their result buffer. -/
theorem algebraic : Cert.algebraic_KernelIdeal_ReferenceIdeal := by
  intro m ρ m' ρ' hpre hagree
  refine ⟨fun c => fun _ => Cert.Spec.total
      (fun i k => m ((c.tc : Thread Cert.KernelIdeal.nD Cert.KernelIdeal.τ).loc Cert.KernelIdeal.main_arg0) (ValueIdx.ix2 i k))
      (fun i => m ((c.tc : Thread Cert.KernelIdeal.nD Cert.KernelIdeal.τ).loc Cert.KernelIdeal.main_arg1) (ValueIdx.ix1 i)), ?_, ?_⟩
  · refine (θ_run Cert.KernelIdeal.defs _ _).mono (fun _ h c => ⟨(h c).1.trans ?_, (h c).2⟩)
      (Cert.KernelIdeal.Hand.run_main (F := Ideal) m ρ)
    rw [Cert.KernelIdeal.Hand.tailV_result]
    exact Cert.KernelIdeal.Hand.kernel_total m c
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v34_eq, (hagree c).1, (hagree c).2]
    exact Cert.RefBridge.ref_eq_total _ _ (Cert.RefBridge.finite_of_pre _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
